-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S4x16x4096 : Shape := ⟨3, ![4, 16, 4096]⟩
abbrev S4x4096x16 : Shape := ⟨3, ![4, 4096, 16]⟩
abbrev S4 : Shape := ⟨1, ![4]⟩
abbrev S4x16 : Shape := ⟨2, ![4, 16]⟩
abbrev S4x4096 : Shape := ⟨2, ![4, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4x16x4096 : S_.BroadcastsInDim S4x16x4096 (![] : Fin 0 → Fin S4x16x4096.rank)
  reducesTo_S4x16x4096_S_d0_1_2 : S4x16x4096.ReducesTo [0, 1, 2] S_
  bcast_S_S4x4096x16 : S_.BroadcastsInDim S4x4096x16 (![] : Fin 0 → Fin S4x4096x16.rank)
  reducesTo_S4x4096x16_S_d0_1_2 : S4x4096x16.ReducesTo [0, 1, 2] S_
  bcast_S_S4 : S_.BroadcastsInDim S4 (![] : Fin 0 → Fin S4.rank)
  reducesTo_S4_S_d0 : S4.ReducesTo [0] S_
  bcast_S_S4x16 : S_.BroadcastsInDim S4x16 (![] : Fin 0 → Fin S4x16.rank)
  reducesTo_S4x16_S_d0_1 : S4x16.ReducesTo [0, 1] S_
  bcast_S_S4x4096 : S_.BroadcastsInDim S4x4096 (![] : Fin 0 → Fin S4x4096.rank)
  reducesTo_S4x4096_S_d0_1 : S4x4096.ReducesTo [0, 1] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg7 : FVec F S4x4096x16 .f32) (main_arg8 : FVec F S4x16 .f32) (main_arg9 : FVec F S4x4096 .f32) (main_arg10 : FVec F S4 .f32) (main_v33 : IVec S_ 1) : IVec S_ 1 :=
  let main_v34 : FVec F S4x4096x16 .f32 := Host.absf main_arg7
  let main_cst_12 : FVec F S_ .f32 := constant S_ .f32 0x7F800000#32
  let main_v35 : FVec F S4x4096x16 .f32 := broadcastInDim S4x4096x16 ![] bcast_S_S4x4096x16 main_cst_12
  let main_v36 : IVec S4x4096x16 1 := cmpf .olt main_v34 main_v35
  let main_c_13 : IVec S_ 1 := constantI S_ 1 1#1
  let main_v37 : IVec S_ 1 := (fun x v => Host.reduce IntOp.andi x v reducesTo_S4x4096x16_S_d0_1_2 h_S_) main_v36 main_c_13
  let main_v38 : IVec S_ 1 := andi main_v33 main_v37
  let main_v39 : FVec F S4x16 .f32 := Host.absf main_arg8
  let main_cst_14 : FVec F S_ .f32 := constant S_ .f32 0x7F800000#32
  let main_v40 : FVec F S4x16 .f32 := broadcastInDim S4x16 ![] bcast_S_S4x16 main_cst_14
  let main_v41 : IVec S4x16 1 := cmpf .olt main_v39 main_v40
  let main_c_15 : IVec S_ 1 := constantI S_ 1 1#1
  let main_v42 : IVec S_ 1 := (fun x v => Host.reduce IntOp.andi x v reducesTo_S4x16_S_d0_1 h_S_) main_v41 main_c_15
  let main_v43 : IVec S_ 1 := andi main_v38 main_v42
  let main_v44 : FVec F S4x4096 .f32 := Host.absf main_arg9
  let main_cst_16 : FVec F S_ .f32 := constant S_ .f32 0x7F800000#32
  let main_v45 : FVec F S4x4096 .f32 := broadcastInDim S4x4096 ![] bcast_S_S4x4096 main_cst_16
  let main_v46 : IVec S4x4096 1 := cmpf .olt main_v44 main_v45
  let main_c_17 : IVec S_ 1 := constantI S_ 1 1#1
  let main_v47 : IVec S_ 1 := (fun x v => Host.reduce IntOp.andi x v reducesTo_S4x4096_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg4 : FVec F S4x4096x16 .f32) (main_arg5 : FVec F S4 .f32) (main_arg6 : FVec F S4x16x4096 .f32) (main_arg7 : FVec F S4x4096x16 .f32) (main_arg8 : FVec F S4x16 .f32) (main_arg9 : FVec F S4x4096 .f32) (main_arg10 : FVec F S4 .f32) (main_v13 : IVec S_ 1) (main_v16 : IVec S4x16x4096 1) : IVec S_ 1 :=
  let main_c_5 : IVec S_ 1 := constantI S_ 1 1#1
  let main_v17 : IVec S_ 1 := (fun x v => Host.reduce IntOp.andi x v reducesTo_S4x16x4096_S_d0_1_2 h_S_) main_v16 main_c_5
  let main_v18 : IVec S_ 1 := andi main_v13 main_v17
  let main_v19 : FVec F S4x4096x16 .f32 := Host.absf main_arg4
  let main_cst_6 : FVec F S_ .f32 := constant S_ .f32 0x7F800000#32
  let main_v20 : FVec F S4x4096x16 .f32 := broadcastInDim S4x4096x16 ![] bcast_S_S4x4096x16 main_cst_6
  let main_v21 : IVec S4x4096x16 1 := cmpf .olt main_v19 main_v20
  let main_c_7 : IVec S_ 1 := constantI S_ 1 1#1
  let main_v22 : IVec S_ 1 := (fun x v => Host.reduce IntOp.andi x v reducesTo_S4x4096x16_S_d0_1_2 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4x16x4096 .f32 := Host.absf main_arg6
  let main_cst_10 : FVec F S_ .f32 := constant S_ .f32 0x7F800000#32
  let main_v30 : FVec F S4x16x4096 .f32 := broadcastInDim S4x16x4096 ![] bcast_S_S4x16x4096 main_cst_10
  let main_v31 : IVec S4x16x4096 1 := cmpf .olt main_v29 main_v30
  let main_c_11 : IVec S_ 1 := constantI S_ 1 1#1
  let main_v32 : IVec S_ 1 := (fun x v => Host.reduce IntOp.andi x v reducesTo_S4x16x4096_S_d0_1_2 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x4096 .f32) (main_arg1 : FVec F S4096x4096 .f32) (main_arg2 : FVec F S4096 .f32) (main_arg3 : FVec F S4x16x4096 .f32) (main_arg4 : FVec F S4x4096x16 .f32) (main_arg5 : FVec F S4 .f32) (main_arg6 : FVec F S4x16x4096 .f32) (main_arg7 : FVec F S4x4096x16 .f32) (main_arg8 : FVec F S4x16 .f32) (main_arg9 : FVec F S4x4096 .f32) (main_arg10 : FVec F S4 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4x16x4096 .f32 := Host.absf main_arg3
  let main_cst_4 : FVec F S_ .f32 := constant S_ .f32 0x7F800000#32
  let main_v15 : FVec F S4x16x4096 .f32 := broadcastInDim S4x16x4096 ![] bcast_S_S4x16x4096 main_cst_4
  let main_v16 : IVec S4x16x4096 1 := cmpf .olt main_v14 main_v15
  fn_part1 (F := F) main_arg4 main_arg5 main_arg6 main_arg7 main_arg8 main_arg9 main_arg10 main_v13 main_v16
-- ==== Kernel.lean ====
abbrev S16384x4096 : Shape := ⟨2, ![16384, 4096]⟩
abbrev S4096x4096 : Shape := ⟨2, ![4096, 4096]⟩
abbrev S4096 : Shape := ⟨1, ![4096]⟩
abbrev S4x16x4096 : Shape := ⟨3, ![4, 16, 4096]⟩
abbrev S4x4096x16 : Shape := ⟨3, ![4, 4096, 16]⟩
abbrev S4 : Shape := ⟨1, ![4]⟩
abbrev S4x16 : Shape := ⟨2, ![4, 16]⟩
abbrev S4x4096 : Shape := ⟨2, ![4, 4096]⟩
abbrev S4x1x1 : Shape := ⟨3, ![4, 1, 1]⟩
abbrev S8x16x4096 : Shape := ⟨3, ![8, 16, 4096]⟩
abbrev S4x1x16 : Shape := ⟨3, ![4, 1, 16]⟩
abbrev S4x4096x1 : Shape := ⟨3, ![4, 4096, 1]⟩
abbrev S8x4096x16 : Shape := ⟨3, ![8, 4096, 16]⟩
abbrev S1x4096 : Shape := ⟨2, ![1, 4096]⟩
abbrev S2048x1024 : Shape := ⟨2, ![2048, 1024]⟩
abbrev S1024x1024 : Shape := ⟨2, ![1024, 1024]⟩
abbrev S1x16x1024 : Shape := ⟨3, ![1, 16, 1024]⟩
abbrev S1x1024x16 : Shape := ⟨3, ![1, 1024, 16]⟩
abbrev S1x1024 : Shape := ⟨2, ![1, 1024]⟩
abbrev S2048x16 : Shape := ⟨2, ![2048, 16]⟩
abbrev S16x1024 : Shape := ⟨2, ![16, 1024]⟩
abbrev S1024x16 : Shape := ⟨2, ![1024, 16]⟩

abbrev nBuf : Space → Nat
  | .hbm => 31
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4x16x4096, .f32⟩
  | .hbm, ⟨4, _⟩ => ⟨S4x4096x16, .f32⟩
  | .hbm, ⟨5, _⟩ => ⟨S4, .f32⟩
  | .hbm, ⟨6, _⟩ => ⟨S4x16x4096, .f32⟩
  | .hbm, ⟨7, _⟩ => ⟨S4x4096x16, .f32⟩
  | .hbm, ⟨8, _⟩ => ⟨S4x16, .f32⟩
  | .hbm, ⟨9, _⟩ => ⟨S4x4096, .f32⟩
  | .hbm, ⟨10, _⟩ => ⟨S4, .f32⟩
  | .hbm, ⟨11, _⟩ => ⟨S4x1x1, .f32⟩
  | .hbm, ⟨12, _⟩ => ⟨S4x16x4096, .f32⟩
  | .hbm, ⟨13, _⟩ => ⟨S4x16x4096, .f32⟩
  | .hbm, ⟨14, _⟩ => ⟨S8x16x4096, .f32⟩
  | .hbm, ⟨15, _⟩ => ⟨S4x1x1, .f32⟩
  | .hbm, ⟨16, _⟩ => ⟨S4x4096x16, .f32⟩
  | .hbm, ⟨17, _⟩ => ⟨S4x4096x16, .f32⟩
  | .hbm, ⟨18, _⟩ => ⟨S4x1x16, .f32⟩
  | .hbm, ⟨19, _⟩ => ⟨S4x4096x16, .f32⟩
  | .hbm, ⟨20, _⟩ => ⟨S4x4096x16, .f32⟩
  | .hbm, ⟨21, _⟩ => ⟨S4x4096x1, .f32⟩
  | .hbm, ⟨22, _⟩ => ⟨S4x4096x16, .f32⟩
  | .hbm, ⟨23, _⟩ => ⟨S4x4096x16, .f32⟩
  | .hbm, ⟨24, _⟩ => ⟨S8x4096x16, .f32⟩
  | .hbm, ⟨25, _⟩ => ⟨S8x16x4096, .bf16⟩
  | .hbm, ⟨26, _⟩ => ⟨S8x4096x16, .bf16⟩
  | .hbm, ⟨27, _⟩ => ⟨S1x4096, .f32⟩
  | .hbm, ⟨28, _⟩ => ⟨S16384x4096, .bf16⟩
  | .hbm, ⟨29, _⟩ => ⟨S4096x4096, .bf16⟩
  | .hbm, ⟨30, _⟩ => ⟨S16384x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x1024x16, .bf16⟩
  | .local _ .vmem, ⟨7, _⟩ => ⟨S1x1024x16, .bf16⟩
  | .local _ .vmem, ⟨8, _⟩ => ⟨S1x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | .local _ .vmem, ⟨12, _⟩ => ⟨S2048x16, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg1.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bcast_S4_S4x1x1_0 : S4.BroadcastsInDim S4x1x1 (![0] : Fin 1 → Fin S4x1x1.rank)
  bcast_S4x1x1_S4x16x4096_0_1_2 : S4x1x1.BroadcastsInDim S4x16x4096 (![0, 1, 2] : Fin 3 → Fin S4x16x4096.rank)
  concatenates_S4x16x4096_S4x16x4096_S8x16x4096_d0 : Shape.Concatenates [S4x16x4096, S4x16x4096] S8x16x4096 0
  bcast_S4x1x1_S4x4096x16_0_1_2 : S4x1x1.BroadcastsInDim S4x4096x16 (![0, 1, 2] : Fin 3 → Fin S4x4096x16.rank)
  bcast_S4x16_S4x1x16_0_2 : S4x16.BroadcastsInDim S4x1x16 (![0, 2] : Fin 2 → Fin S4x1x16.rank)
  bcast_S4x1x16_S4x4096x16_0_1_2 : S4x1x16.BroadcastsInDim S4x4096x16 (![0, 1, 2] : Fin 3 → Fin S4x4096x16.rank)
  bcast_S4x4096_S4x4096x1_0_1 : S4x4096.BroadcastsInDim S4x4096x1 (![0, 1] : Fin 2 → Fin S4x4096x1.rank)
  bcast_S4x4096x1_S4x4096x16_0_1_2 : S4x4096x1.BroadcastsInDim S4x4096x16 (![0, 1, 2] : Fin 3 → Fin S4x4096x16.rank)
  concatenates_S4x4096x16_S4x4096x16_S8x4096x16_d0 : Shape.Concatenates [S4x4096x16, S4x4096x16] S8x4096x16 0
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x1024_S1024x1024_S2048x1024_1_1_0_0_n_n_wf : DotDims.WF S2048x1024 S1024x1024 S2048x1024 [1] [1] [0] [0] [] []
  dot_S2048x1024_S16x1024_S2048x16_1_1_0_0_n_n_wf : DotDims.WF S2048x1024 S16x1024 S2048x16 [1] [1] [0] [0] [] []
  dot_S2048x16_S1024x16_S2048x1024_1_1_0_0_n_n_wf : DotDims.WF S2048x16 S1024x16 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x4096.size a
  hwx0_0 : ∀ i : grid0.Coords, EltTy.bits .bf16 = 32 ∨ (Rect.block (s := S16384x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1024.size a ≤ S8x16x4096.size a
  hwx0_2 : ∀ i : grid0.Coords, EltTy.bits .bf16 = 32 ∨ (Rect.block (s := S8x16x4096) S1x16x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x16.size a ≤ S8x4096x16.size a
  hwx0_3 : ∀ i : grid0.Coords, EltTy.bits .bf16 = 32 ∨ (Rect.block (s := S8x4096x16) S1x1024x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S16384x4096.size a
  hwx0_5 : ∀ i : grid0.Coords, EltTy.bits .f32 = 32 ∨ (Rect.block (s := S16384x4096) S2048x1024.size (cc0_transform_5 i) (hinb0_5 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x1024_S16x1024_S2048x16_1_1_0_0_n_n : DotDims S2048x1024 S16x1024 S2048x16 where
  lhsContracting := [1]
  rhsContracting := [1]
  lhsNonContracting := [0]
  rhsNonContracting := [0]
  lhsBatch := []
  rhsBatch := []
  wf := dot_S2048x1024_S16x1024_S2048x16_1_1_0_0_n_n_wf
def dot_S2048x16_S1024x16_S2048x1024_1_1_0_0_n_n : DotDims S2048x16 S1024x16 S2048x1024 where
  lhsContracting := [1]
  rhsContracting := [1]
  lhsNonContracting := [0]
  rhsNonContracting := [0]
  lhsBatch := []
  rhsBatch := []
  wf := dot_S2048x16_S1024x16_S2048x1024_1_1_0_0_n_n_wf

abbrev win0_0 : Pipeline.Window sig grid0 :=
  Pipeline.Window.ofSpec (Memref.whole main_v17) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S4x16x4096 : Shape := ⟨3, ![4, 16, 4096]⟩
abbrev S4x4096x16 : Shape := ⟨3, ![4, 4096, 16]⟩
abbrev S4 : Shape := ⟨1, ![4]⟩
abbrev S4x16 : Shape := ⟨2, ![4, 16]⟩
abbrev S4x4096 : Shape := ⟨2, ![4, 4096]⟩
abbrev S1x4096 : Shape := ⟨2, ![1, 4096]⟩
abbrev S8x2048x4096 : Shape := ⟨3, ![8, 2048, 4096]⟩
abbrev S4x2048x4096 : Shape := ⟨3, ![4, 2048, 4096]⟩
abbrev S4x2048x16 : Shape := ⟨3, ![4, 2048, 16]⟩
abbrev S4x1x1 : Shape := ⟨3, ![4, 1, 1]⟩
abbrev S4x1x16 : Shape := ⟨3, ![4, 1, 16]⟩
abbrev S4x1x4096 : Shape := ⟨3, ![4, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4x16x4096, .f32⟩
  | .hbm, ⟨4, _⟩ => ⟨S4x4096x16, .f32⟩
  | .hbm, ⟨5, _⟩ => ⟨S4, .f32⟩
  | .hbm, ⟨6, _⟩ => ⟨S4x16x4096, .f32⟩
  | .hbm, ⟨7, _⟩ => ⟨S4x4096x16, .f32⟩
  | .hbm, ⟨8, _⟩ => ⟨S4x16, .f32⟩
  | .hbm, ⟨9, _⟩ => ⟨S4x4096, .f32⟩
  | .hbm, ⟨10, _⟩ => ⟨S4, .f32⟩
  | .hbm, ⟨11, _⟩ => ⟨S4096x4096, .f32⟩
  | .hbm, ⟨12, _⟩ => ⟨S16384x4096, .f32⟩
  | .hbm, ⟨13, _⟩ => ⟨S1x4096, .f32⟩
  | .hbm, ⟨14, _⟩ => ⟨S16384x4096, .f32⟩
  | .hbm, ⟨15, _⟩ => ⟨S16384x4096, .f32⟩
  | .hbm, ⟨16, _⟩ => ⟨S8x2048x4096, .f32⟩
  | .hbm, ⟨17, _⟩ => ⟨S4x2048x4096, .f32⟩
  | .hbm, ⟨18, _⟩ => ⟨S4x2048x16, .f32⟩
  | .hbm, ⟨19, _⟩ => ⟨S4x2048x4096, .f32⟩
  | .hbm, ⟨20, _⟩ => ⟨S4x1x1, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S4x1x1, .f32⟩
  | .hbm, ⟨25, _⟩ => ⟨S4x2048x4096, .f32⟩
  | .hbm, ⟨26, _⟩ => ⟨S4x2048x4096, .f32⟩
  | .hbm, ⟨27, _⟩ => ⟨S4x2048x16, .f32⟩
  | .hbm, ⟨28, _⟩ => ⟨S4x1x16, .f32⟩
  | .hbm, ⟨29, _⟩ => ⟨S4x2048x16, .f32⟩
  | .hbm, ⟨30, _⟩ => ⟨S4x2048x16, .f32⟩
  | .hbm, ⟨31, _⟩ => ⟨S4x2048x4096, .f32⟩
  | .hbm, ⟨32, _⟩ => ⟨S4x1x4096, .f32⟩
  | .hbm, ⟨33, _⟩ => ⟨S4x2048x4096, .f32⟩
  | .hbm, ⟨34, _⟩ => ⟨S4x2048x4096, .f32⟩
  | .hbm, ⟨35, _⟩ => ⟨S8x2048x4096, .f32⟩
  | .hbm, ⟨36, _⟩ => ⟨S16384x4096, .f32⟩
  | .hbm, ⟨37, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  shapeCasts_S16384x4096_S8x2048x4096 : S16384x4096.ShapeCasts S8x2048x4096
  slices_S8x2048x4096_S4x2048x4096_0_0_0 : S8x2048x4096.Slices ![0, 0, 0] S4x2048x4096
  bcast_S4_S4x1x1_0 : S4.BroadcastsInDim S4x1x1 (![0] : Fin 1 → Fin S4x1x1.rank)
  bcast_S4x1x1_S4x2048x4096_0_1_2 : S4x1x1.BroadcastsInDim S4x2048x4096 (![0, 1, 2] : Fin 3 → Fin S4x2048x4096.rank)
  slices_S8x2048x4096_S4x2048x4096_4_0_0 : S8x2048x4096.Slices ![4, 0, 0] S4x2048x4096
  bcast_S4x16_S4x1x16_0_2 : S4x16.BroadcastsInDim S4x1x16 (![0, 2] : Fin 2 → Fin S4x1x16.rank)
  bcast_S4x1x16_S4x2048x16_0_1_2 : S4x1x16.BroadcastsInDim S4x2048x16 (![0, 1, 2] : Fin 3 → Fin S4x2048x16.rank)
  bcast_S4x4096_S4x1x4096_0_2 : S4x4096.BroadcastsInDim S4x1x4096 (![0, 2] : Fin 2 → Fin S4x1x4096.rank)
  bcast_S4x1x4096_S4x2048x4096_0_1_2 : S4x1x4096.BroadcastsInDim S4x2048x4096 (![0, 1, 2] : Fin 3 → Fin S4x2048x4096.rank)
  concatenates_S4x2048x4096_S4x2048x4096_S8x2048x4096_d0 : Shape.Concatenates [S4x2048x4096, S4x2048x4096] S8x2048x4096 0
  shapeCasts_S8x2048x4096_S16384x4096 : S8x2048x4096.ShapeCasts S16384x4096
  dot_S16384x4096_S4096x4096_S16384x4096_1_0_0_1_n_n_wf : DotDims.WF S16384x4096 S4096x4096 S16384x4096 [1] [0] [0] [1] [] []
  dot_S4x2048x4096_S4x16x4096_S4x2048x16_2_2_1_1_0_0_wf : DotDims.WF S4x2048x4096 S4x16x4096 S4x2048x16 [2] [2] [1] [1] [0] [0]
  dot_S4x2048x16_S4x4096x16_S4x2048x4096_2_2_1_1_0_0_wf : DotDims.WF S4x2048x16 S4x4096x16 S4x2048x4096 [2] [2] [1] [1] [0] [0]

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf
def dot_S4x2048x4096_S4x16x4096_S4x2048x16_2_2_1_1_0_0 : DotDims S4x2048x4096 S4x16x4096 S4x2048x16 where
  lhsContracting := [2]
  rhsContracting := [2]
  lhsNonContracting := [1]
  rhsNonContracting := [1]
  lhsBatch := [0]
  rhsBatch := [0]
  wf := dot_S4x2048x4096_S4x16x4096_S4x2048x16_2_2_1_1_0_0_wf
def dot_S4x2048x16_S4x4096x16_S4x2048x4096_2_2_1_1_0_0 : DotDims S4x2048x16 S4x4096x16 S4x2048x4096 where
  lhsContracting := [2]
  rhsContracting := [2]
  lhsNonContracting := [1]
  rhsNonContracting := [1]
  lhsBatch := [0]
  rhsBatch := [0]
  wf := dot_S4x2048x16_S4x4096x16_S4x2048x4096_2_2_1_1_0_0_wf

class Facts : Prop extends Facts₀ where

variable [Facts]
-- ==== Proof.AdapterSpec.lean ====
/-
  A frozen linear layer with per-segment low-rank adapters, written twice as a function of the eleven argument arrays.

  The 16384 token rows fall into eight consecutive segments of 2048 rows. Row `s` of segment `g = s / 2048` gets, besides
  the base product `x W^T + b`, a rank-16 correction: for `g < 4` the scaled product `((x A_g^T) B_g^T) * c_g`, and for
  `g >= 4`, with `g' = g - 4`, the product `((((x * c'_g') A'_g'^T) * d_g') B'_g'^T) * v_g'` whose hidden vector is scaled
  per rank by `d` and whose output is scaled per column by `v`.

  `refFun` is that formula as stated, every contraction one sum over the whole axis. `kerFun` is the same quantity
  arranged the way a blocked evaluation produces it: every scale folded into two combined factor arrays
  (`Acomb`, `Bcomb`), each contraction over the 4096 input columns cut into four consecutive blocks of 1024 whose
  partial sums are added in order starting from zero (`chain4`), and the bias added last. Over real entries the two
  agree; that is proved in another module.
-/
import Idealize.ShloMosaic.PureOps.Ideal
import Idealize.ShloMosaic.Lib.ValueIdx

noncomputable section

open scoped BigOperators

namespace Cert.Adapters

open Idealize.ShloMosaic Idealize.ShloMosaic.ValueIdx

abbrev SX : Shape := ⟨2, ![16384, 4096]⟩
abbrev SW : Shape := ⟨2, ![4096, 4096]⟩
abbrev Sb : Shape := ⟨1, ![4096]⟩
abbrev SA : Shape := ⟨3, ![4, 16, 4096]⟩
abbrev SB : Shape := ⟨3, ![4, 4096, 16]⟩
abbrev Sc : Shape := ⟨1, ![4]⟩
abbrev Sd : Shape := ⟨2, ![4, 16]⟩
abbrev Sv : Shape := ⟨2, ![4, 4096]⟩

/-- The segment a token row lies in. -/
def seg (s : Fin 16384) : Fin 8 := ⟨s.val / 2048, by have := s.isLt; omega⟩

/-- Column `l` of the `kb`-th block of 1024 input columns. -/
def kpos (kb : Fin 4) (l : Fin 1024) : Fin 4096 := ⟨kb.val * 1024 + l.val, by have := kb.isLt; have := l.isLt; omega⟩

/-- Four partial results added in order, starting from zero. -/
def chain4 (P : Fin 4 → EReal) : EReal := (((0 + P 0) + P 1) + P 2) + P 3

/-- The combined first factors: segment `g < 4` uses `A_g`, segment `g >= 4` uses `A'_(g-4)` scaled by `c'_(g-4)`. -/
def Acomb (a3 : SA.Idx → EReal) (a6 : SA.Idx → EReal) (a10 : Sc.Idx → EReal) (g : Fin 8) (r : Fin 16) (k : Fin 4096) : EReal :=
  if h : g.val < 4 then a3 (ix3 ⟨g.val, h⟩ r k)
  else a6 (ix3 ⟨g.val - 4, by have := g.isLt; omega⟩ r k) * a10 (ix1 ⟨g.val - 4, by have := g.isLt; omega⟩)

/-- The combined second factors: segment `g < 4` uses `B_g` scaled by `c_g`, segment `g >= 4` uses `B'_(g-4)` scaled per rank
    by `d_(g-4)` and then per output column by `v_(g-4)`. -/
def Bcomb (a4 : SB.Idx → EReal) (a5 : Sc.Idx → EReal) (a7 : SB.Idx → EReal) (a8 : Sd.Idx → EReal) (a9 : Sv.Idx → EReal)
    (g : Fin 8) (o : Fin 4096) (r : Fin 16) : EReal :=
  if h : g.val < 4 then a4 (ix3 ⟨g.val, h⟩ o r) * a5 (ix1 ⟨g.val, h⟩)
  else (a7 (ix3 ⟨g.val - 4, by have := g.isLt; omega⟩ o r) * a8 (ix2 ⟨g.val - 4, by have := g.isLt; omega⟩ r))
    * a9 (ix2 ⟨g.val - 4, by have := g.isLt; omega⟩ o)

/-- The blocked arrangement: base product and hidden vector accumulated over four column blocks, the correction
    contracted over the 16 ranks against the combined second factor, the bias added last. -/
def kerFun (a0 : SX.Idx → EReal) (a1 : SW.Idx → EReal) (a2 : Sb.Idx → EReal)
    (A : Fin 8 → Fin 16 → Fin 4096 → EReal) (B : Fin 8 → Fin 4096 → Fin 16 → EReal) (s : Fin 16384) (o : Fin 4096) : EReal :=
  (chain4 (fun kb => ∑ l : Fin 1024, a0 (ix2 s (kpos kb l)) * a1 (ix2 o (kpos kb l)))
    + ∑ r : Fin 16, chain4 (fun kb => ∑ l : Fin 1024, a0 (ix2 s (kpos kb l)) * A (seg s) r (kpos kb l)) * B (seg s) o r)
  + a2 (ix1 o)

/-- The correction of a row in one of the first four segments. -/
def loraRef (a0 : SX.Idx → EReal) (a3 : SA.Idx → EReal) (a4 : SB.Idx → EReal) (a5 : Sc.Idx → EReal)
    (g : Fin 4) (s : Fin 16384) (o : Fin 4096) : EReal :=
  (∑ r : Fin 16, (∑ k : Fin 4096, a0 (ix2 s k) * a3 (ix3 g r k)) * a4 (ix3 g o r)) * a5 (ix1 g)

/-- The correction of a row in one of the last four segments. -/
def veraRef (a0 : SX.Idx → EReal) (a6 : SA.Idx → EReal) (a7 : SB.Idx → EReal) (a8 : Sd.Idx → EReal) (a9 : Sv.Idx → EReal)
    (a10 : Sc.Idx → EReal) (g : Fin 4) (s : Fin 16384) (o : Fin 4096) : EReal :=
  (∑ r : Fin 16, ((∑ k : Fin 4096, (a0 (ix2 s k) * a10 (ix1 g)) * a6 (ix3 g r k)) * a8 (ix2 g r)) * a7 (ix3 g o r)) * a9 (ix2 g o)

/-- The layer as stated: base product plus bias, plus the correction of the row's segment. -/
def refFun (a0 : SX.Idx → EReal) (a1 : SW.Idx → EReal) (a2 : Sb.Idx → EReal) (a3 : SA.Idx → EReal) (a4 : SB.Idx → EReal)
    (a5 : Sc.Idx → EReal) (a6 : SA.Idx → EReal) (a7 : SB.Idx → EReal) (a8 : Sd.Idx → EReal) (a9 : Sv.Idx → EReal)
    (a10 : Sc.Idx → EReal) (s : Fin 16384) (o : Fin 4096) : EReal :=
  ((∑ k : Fin 4096, a0 (ix2 s k) * a1 (ix2 o k)) + a2 (ix1 o))
  + (if h : s.val / 2048 < 4 then loraRef a0 a3 a4 a5 ⟨s.val / 2048, h⟩ s o
     else veraRef a0 a6 a7 a8 a9 a10 ⟨s.val / 2048 - 4, by have := s.isLt; omega⟩ s o)

end Cert.Adapters

end
-- ==== Proof.LibBlockSum.lean ====
/-
  A sum over a long one-axis index set, cut into equal blocks.

  An array of `N = a * b` entries laid out in `a` consecutive blocks of `b` entries has entry `i * b + j` at offset `j` of
  block `i`; so a sum over all `N` entries is the sum over the blocks of the sum over the offsets. Cutting twice
  (`N = a * b * c`: blocks of rows of lanes) gives a triple sum with entry `(t * b + r) * c + l` at lane `l` of row `r` of
  block `t`. The sums are in any commutative monoid: only the order and grouping of the terms change.
-/
import Mathlib.Algebra.BigOperators.Fin
import Mathlib.Logic.Equiv.Fin.Basic
import Idealize.ShloMosaic.Lib.ValueIdx

noncomputable section

open scoped BigOperators

namespace Cert.Lib.BlockSum

open Idealize.ShloMosaic Idealize.ShloMosaic.ValueIdx

/-- Offset `j` of block `i`, of `a` blocks of length `b`, is a position below `a * b`. -/
theorem blockPos_lt {a b N : ℕ} (hN : a * b = N) (i : Fin a) (j : Fin b) : i.val * b + j.val < N := by
  subst hN
  calc i.val * b + j.val < i.val * b + b := by have := j.isLt; omega
    _ = (i.val + 1) * b := by ring
    _ ≤ a * b := Nat.mul_le_mul_right b i.isLt

/-- A sum over `a * b` positions is the sum over the `a` blocks of the sum over the `b` offsets. -/
theorem sum_fin_blocks {A : Type*} [AddCommMonoid A] {a b N : ℕ} (hN : a * b = N) (f : Fin N → A) :
    ∑ k, f k = ∑ i : Fin a, ∑ j : Fin b, f ⟨i.val * b + j.val, blockPos_lt hN i j⟩ := by
  subst hN
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.mul_comm]; omega

/-- A rank-1 index set is its coordinate's range, so a sum over it is the sum over the coordinate. -/
theorem sum_idx1 {A : Type*} [AddCommMonoid A] {n : ℕ} (f : (⟨1, ![n]⟩ : Shape).Idx → A) :
    ∑ i, f i = ∑ k : Fin n, f (ix1 k) := by
  let e : (⟨1, ![n]⟩ : Shape).Idx ≃ Fin n :=
    { toFun := fun i => i 0, invFun := fun k => ix1 k, left_inv := fun i => (eq_ix1 i).symm, right_inv := fun _ => rfl }
  rw [← Equiv.sum_comp e.symm f]
  rfl

/-- Lane `l` of row `r` of block `t`, of `a` blocks of `b` rows of `c` lanes, is a position below `a * b * c`. -/
theorem lanePos_lt {a b c N : ℕ} (hN : a * b * c = N) (t : Fin a) (r : Fin b) (l : Fin c) :
    (t.val * b + r.val) * c + l.val < N :=
  blockPos_lt (a := a * b) hN ⟨t.val * b + r.val, blockPos_lt rfl t r⟩ l

/-- A sum over a one-axis index set of `a * b * c` entries is the triple sum over blocks, rows and lanes. -/
theorem sum_idx1_blocks {A : Type*} [AddCommMonoid A] {a b c N : ℕ} (hN : a * b * c = N)
    (f : (⟨1, ![N]⟩ : Shape).Idx → A) :
    ∑ i, f i = ∑ t : Fin a, ∑ r : Fin b, ∑ l : Fin c, f (ix1 ⟨(t.val * b + r.val) * c + l.val, lanePos_lt hN t r l⟩) := by
  rw [sum_idx1, sum_fin_blocks (a := a * b) (b := c) hN, sum_fin_blocks (a := a) (b := b) (N := a * b) rfl]

end Cert.Lib.BlockSum

end
-- ==== Proof.AdapterAlgebra.lean ====
/-
  The blocked arrangement of the adapter layer agrees with the formula as stated, when every entry is a real.

  Two facts are used. First, cutting a contraction over the 4096 input columns into four consecutive blocks of 1024
  and adding the partial sums in order from zero only regroups the terms of one finite sum; this holds for any
  entries. Second, a scale factor may be moved across a finite sum and across a product; this is arithmetic in the
  reals, so each side is first written as the image of one real expression, and the two real expressions are compared.
-/
import proofs.«109911_j16733192585553_2_alg».proof.Proof.AdapterSpec
import proofs.«109911_j16733192585553_2_alg».proof.Proof.LibBlockSum
import Mathlib.Tactic.Ring
import Mathlib.Algebra.BigOperators.Ring.Finset

noncomputable section

open scoped BigOperators

namespace Cert.Adapters

open Idealize.ShloMosaic Idealize.ShloMosaic.ValueIdx

/-- A finite sum of reals, read in the extended reals, is the sum of the terms read there. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Four block sums of 1024 columns, added in order from zero, are the sum over all 4096 columns. -/
theorem chain4_blocks (g : Fin 4096 → EReal) :
    chain4 (fun kb => ∑ l : Fin 1024, g (kpos kb l)) = ∑ k, g k := by
  rw [Cert.Lib.BlockSum.sum_fin_blocks (a := 4) (b := 1024) (by norm_num) g, Fin.sum_univ_four]
  simp only [chain4, zero_add]
  rfl

/-- The blocked arrangement with every contraction written as one sum over the whole axis. -/
theorem kerFun_eq (a0 : SX.Idx → EReal) (a1 : SW.Idx → EReal) (a2 : Sb.Idx → EReal)
    (A : Fin 8 → Fin 16 → Fin 4096 → EReal) (B : Fin 8 → Fin 4096 → Fin 16 → EReal) (s : Fin 16384) (o : Fin 4096) :
    kerFun a0 a1 a2 A B s o =
      ((∑ k : Fin 4096, a0 (ix2 s k) * a1 (ix2 o k))
        + ∑ r : Fin 16, (∑ k : Fin 4096, a0 (ix2 s k) * A (seg s) r k) * B (seg s) o r) + a2 (ix1 o) := by
  have h1 : chain4 (fun kb => ∑ l : Fin 1024, a0 (ix2 s (kpos kb l)) * a1 (ix2 o (kpos kb l)))
      = ∑ k : Fin 4096, a0 (ix2 s k) * a1 (ix2 o k) :=
    chain4_blocks (fun k => a0 (ix2 s k) * a1 (ix2 o k))
  have h2 : ∀ r : Fin 16, chain4 (fun kb => ∑ l : Fin 1024, a0 (ix2 s (kpos kb l)) * A (seg s) r (kpos kb l))
      = ∑ k : Fin 4096, a0 (ix2 s k) * A (seg s) r k :=
    fun r => chain4_blocks (fun k => a0 (ix2 s k) * A (seg s) r k)
  unfold kerFun
  rw [h1]
  simp only [h2]

/-- The combined first factor on a row of the first four segments. -/
theorem Acomb_lo (a3 : SA.Idx → EReal) (a6 : SA.Idx → EReal) (a10 : Sc.Idx → EReal) (s : Fin 16384)
    (h : s.val / 2048 < 4) (r : Fin 16) (k : Fin 4096) :
    Acomb a3 a6 a10 (seg s) r k = a3 (ix3 ⟨s.val / 2048, h⟩ r k) := by
  have h' : (seg s).val < 4 := h
  unfold Acomb
  rw [dif_pos h']
  rfl

/-- The combined first factor on a row of the last four segments. -/
theorem Acomb_hi (a3 : SA.Idx → EReal) (a6 : SA.Idx → EReal) (a10 : Sc.Idx → EReal) (s : Fin 16384)
    (h : ¬ s.val / 2048 < 4) (r : Fin 16) (k : Fin 4096) :
    Acomb a3 a6 a10 (seg s) r k
      = a6 (ix3 ⟨s.val / 2048 - 4, by have := s.isLt; omega⟩ r k) * a10 (ix1 ⟨s.val / 2048 - 4, by have := s.isLt; omega⟩) := by
  have h' : ¬ (seg s).val < 4 := h
  unfold Acomb
  rw [dif_neg h']
  rfl

/-- The combined second factor on a row of the first four segments. -/
theorem Bcomb_lo (a4 : SB.Idx → EReal) (a5 : Sc.Idx → EReal) (a7 : SB.Idx → EReal) (a8 : Sd.Idx → EReal)
    (a9 : Sv.Idx → EReal) (s : Fin 16384) (h : s.val / 2048 < 4) (o : Fin 4096) (r : Fin 16) :
    Bcomb a4 a5 a7 a8 a9 (seg s) o r = a4 (ix3 ⟨s.val / 2048, h⟩ o r) * a5 (ix1 ⟨s.val / 2048, h⟩) := by
  have h' : (seg s).val < 4 := h
  unfold Bcomb
  rw [dif_pos h']
  rfl

/-- The combined second factor on a row of the last four segments. -/
theorem Bcomb_hi (a4 : SB.Idx → EReal) (a5 : Sc.Idx → EReal) (a7 : SB.Idx → EReal) (a8 : Sd.Idx → EReal)
    (a9 : Sv.Idx → EReal) (s : Fin 16384) (h : ¬ s.val / 2048 < 4) (o : Fin 4096) (r : Fin 16) :
    Bcomb a4 a5 a7 a8 a9 (seg s) o r
      = (a7 (ix3 ⟨s.val / 2048 - 4, by have := s.isLt; omega⟩ o r) * a8 (ix2 ⟨s.val / 2048 - 4, by have := s.isLt; omega⟩ r))
        * a9 (ix2 ⟨s.val / 2048 - 4, by have := s.isLt; omega⟩ o) := by
  have h' : ¬ (seg s).val < 4 := h
  unfold Bcomb
  rw [dif_neg h']
  rfl

/-- Over real entries the blocked arrangement equals the layer as stated. -/
theorem ker_eq_ref (a0 : SX.Idx → EReal) (a1 : SW.Idx → EReal) (a2 : Sb.Idx → EReal) (a3 : SA.Idx → EReal)
    (a4 : SB.Idx → EReal) (a5 : Sc.Idx → EReal) (a6 : SA.Idx → EReal) (a7 : SB.Idx → EReal) (a8 : Sd.Idx → EReal)
    (a9 : Sv.Idx → EReal) (a10 : Sc.Idx → EReal)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal))
    (h4 : ∀ i, ∃ r : ℝ, a4 i = (r : EReal)) (h5 : ∀ i, ∃ r : ℝ, a5 i = (r : EReal))
    (h6 : ∀ i, ∃ r : ℝ, a6 i = (r : EReal)) (h7 : ∀ i, ∃ r : ℝ, a7 i = (r : EReal))
    (h8 : ∀ i, ∃ r : ℝ, a8 i = (r : EReal)) (h9 : ∀ i, ∃ r : ℝ, a9 i = (r : EReal))
    (h10 : ∀ i, ∃ r : ℝ, a10 i = (r : EReal)) (s : Fin 16384) (o : Fin 4096) :
    kerFun a0 a1 a2 (Acomb a3 a6 a10) (Bcomb a4 a5 a7 a8 a9) s o = refFun a0 a1 a2 a3 a4 a5 a6 a7 a8 a9 a10 s o := by
  choose f0 hf0 using h0
  choose f1 hf1 using h1
  choose f2 hf2 using h2
  choose f3 hf3 using h3
  choose f4 hf4 using h4
  choose f5 hf5 using h5
  choose f6 hf6 using h6
  choose f7 hf7 using h7
  choose f8 hf8 using h8
  choose f9 hf9 using h9
  choose f10 hf10 using h10
  obtain rfl : a0 = fun i => (f0 i : EReal) := funext hf0
  obtain rfl : a1 = fun i => (f1 i : EReal) := funext hf1
  obtain rfl : a2 = fun i => (f2 i : EReal) := funext hf2
  obtain rfl : a3 = fun i => (f3 i : EReal) := funext hf3
  obtain rfl : a4 = fun i => (f4 i : EReal) := funext hf4
  obtain rfl : a5 = fun i => (f5 i : EReal) := funext hf5
  obtain rfl : a6 = fun i => (f6 i : EReal) := funext hf6
  obtain rfl : a7 = fun i => (f7 i : EReal) := funext hf7
  obtain rfl : a8 = fun i => (f8 i : EReal) := funext hf8
  obtain rfl : a9 = fun i => (f9 i : EReal) := funext hf9
  obtain rfl : a10 = fun i => (f10 i : EReal) := funext hf10
  rw [kerFun_eq]
  by_cases h : s.val / 2048 < 4
  · -- a row of the first four segments: the scale of the segment leaves the sum over the ranks
    simp only [refFun, loraRef, Acomb_lo _ _ _ s h, Bcomb_lo _ _ _ _ _ s h, dif_pos h, ← EReal.coe_mul, ← coe_sum, ← EReal.coe_add]
    rw [EReal.coe_eq_coe_iff, add_right_comm]
    congr 1
    rw [Finset.sum_mul]
    refine Finset.sum_congr rfl fun r _ => ?_
    ring
  · -- a row of the last four segments: the input scale enters the hidden sum, the rank and column scales leave it
    simp only [refFun, veraRef, Acomb_hi _ _ _ s h, Bcomb_hi _ _ _ _ _ s h, dif_neg h, ← EReal.coe_mul, ← coe_sum, ← EReal.coe_add]
    rw [EReal.coe_eq_coe_iff, add_right_comm]
    congr 1
    rw [Finset.sum_mul]
    refine Finset.sum_congr rfl fun r _ => ?_
    have hk : ∑ k : Fin 4096, f0 (ix2 s k) * (f6 (ix3 ⟨s.val / 2048 - 4, by have := s.isLt; omega⟩ r k)
          * f10 (ix1 ⟨s.val / 2048 - 4, by have := s.isLt; omega⟩))
        = ∑ k : Fin 4096, (f0 (ix2 s k) * f10 (ix1 ⟨s.val / 2048 - 4, by have := s.isLt; omega⟩))
          * f6 (ix3 ⟨s.val / 2048 - 4, by have := s.isLt; omega⟩ r k) :=
      Finset.sum_congr rfl fun k _ => by ring
    rw [hk]
    ring

end Cert.Adapters

end
-- ==== Proof.FiniteInputs.lean ====
/-
  From the all-finite flag of the eleven argument arrays to real entries.

  The flag is the conjunction, over the eleven arrays, of "every entry has absolute value below plus infinity", each
  conjunct being a reduction by `and` over all axes of the entrywise comparison. A conjunction of one-bit words is one
  exactly when each word is; a reduction by `and` over all axes is one only if every entry of its operand is; and an
  extended real `x` with `max x (-x)` below the top element is neither infinity, hence a real.
-/
import proofs.«109911_j16733192585553_2_alg».proof.Defs
import proofs.«109911_j16733192585553_2_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx Cert.Pre_finite_inputs

/-- The result shape of a reduction over all axes has a single index. -/
instance : Subsingleton S_.Idx := ⟨fun a b => funext fun d => d.elim0⟩

/-- A Boolean as a one-bit word is one exactly when it is true. -/
theorem ofBool_eq_one (b : Bool) : BitVec.ofBool b = 1#1 ↔ b = true := by cases b <;> decide

/-- The bit pattern of plus infinity denotes the top element. -/
theorem ofBits_inf : Ideal.ofBits .f32 0x7F800000#32 = (⊤ : EReal) := by simp [Ideal.ofBits, Ideal.ieee]

/-- An extended real whose absolute value `max x (-x)` is below the top element is a real. -/
theorem real_of_abs_lt_top (x : EReal) (h : max x (-x) < ⊤) : ∃ r : ℝ, x = (r : EReal) := by
  rw [max_lt_iff] at h
  induction x using EReal.rec with
  | bot => exact absurd h.2 (by simp)
  | coe r => exact ⟨r, rfl⟩
  | top => exact absurd h.1 (lt_irrefl _)

/-- The entrywise conjunction of two arrays of one-bit words, read at an index. -/
theorem andi_apply {s : Shape} {w : Nat} (x y : IVec s w) (i : s.Idx) : andi x y i = IntOp.andi (x i) (y i) := rfl

/-- An array whose all-finite flag is one has real entries: the flag is the reduction by `and`, over all axes, of the
    comparison of the entrywise absolute value with plus infinity broadcast to the array's shape. -/
theorem real_of_flag {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi (cmpf .olt (Host.absf x) (broadcastInDim s ![] bc (constant S_ .f32 0x7F800000#32)))
          (constantI S_ 1 1#1) hr hu ix0 = 1#1) (i : s.Idx) : ∃ r : ℝ, x i = (r : EReal) := by
  have hi := Host.reduce_andi_all _ _ hr hu ix0 e i
  change Ideal.cmp .olt (max (x i : EReal) (-(x i : EReal))) (Ideal.ofBits .f32 0x7F800000#32) = 1#1 at hi
  rw [ofBits_inf] at hi
  unfold Ideal.cmp at hi
  rw [ofBool_eq_one, decide_eq_true_eq] at hi
  exact real_of_abs_lt_top _ hi

/-- If the all-finite flag of the eleven arrays is one, every entry of every array is a real. -/
theorem finite_of_fn [Cert.Pre_finite_inputs.Facts]
    (x0 : FVec Ideal S16384x4096 .f32) (x1 : FVec Ideal S4096x4096 .f32) (x2 : FVec Ideal S4096 .f32)
    (x3 : FVec Ideal S4x16x4096 .f32) (x4 : FVec Ideal S4x4096x16 .f32) (x5 : FVec Ideal S4 .f32)
    (x6 : FVec Ideal S4x16x4096 .f32) (x7 : FVec Ideal S4x4096x16 .f32) (x8 : FVec Ideal S4x16 .f32)
    (x9 : FVec Ideal S4x4096 .f32) (x10 : FVec Ideal S4 .f32)
    (h : Cert.Pre_finite_inputs.fn (F := Ideal) x0 x1 x2 x3 x4 x5 x6 x7 x8 x9 x10 = fun _ => 1#1) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal))
    ∧ (∀ i, ∃ r : ℝ, x6 i = (r : EReal)) ∧ (∀ i, ∃ r : ℝ, x7 i = (r : EReal)) ∧ (∀ i, ∃ r : ℝ, x8 i = (r : EReal))
    ∧ (∀ i, ∃ r : ℝ, x9 i = (r : EReal)) ∧ (∀ i, ∃ r : ℝ, x10 i = (r : EReal)) := by
  have h0 := congrFun h ix0
  dsimp only [fn, fn_part1, fn_part2, fn_part3] at h0
  simp only [andi_apply, IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨real_of_flag x0 _ _ _ e0, real_of_flag x1 _ _ _ e1, real_of_flag x2 _ _ _ e2, real_of_flag x3 _ _ _ e3,
    real_of_flag x4 _ _ _ e4, real_of_flag x5 _ _ _ e5, real_of_flag x6 _ _ _ e6, real_of_flag x7 _ _ _ e7,
    real_of_flag x8 _ _ _ e8, real_of_flag x9 _ _ _ e9, real_of_flag x10 _ _ _ e10⟩

end Cert.Finite

end
-- ==== Proof.RefIsSpec.lean ====
/-
  The reference program, read entry by entry, is the layer as stated.

  Row `s` of the 16384 token rows is row `s % 2048` of segment `s / 2048`. The reference reshapes the rows into eight
  segments, computes the rank-16 correction of the first four segments and of the last four separately, joins the two
  along the segment axis and flattens the result back to rows. Read at row `s` and output column `o`, every layout step only
  renames coordinates, so the value is the base product plus bias plus the correction of segment `s / 2048`,
  each contraction a sum over its whole axis: `Cert.Adapters.refFun`.
-/
import proofs.«109911_j16733192585553_2_alg».proof.Proof.Gen.ReferenceIdeal.Read
import proofs.«109911_j16733192585553_2_alg».proof.Proof.AdapterSpec
import Idealize.ShloMosaic.Lib.Pipeline.Value
import Idealize.ShloMosaic.Lib.ValueIdx

noncomputable section

open scoped BigOperators

namespace Cert.Adapters.Ref

open Cert.ReferenceIdeal Cert.ReferenceIdeal.Gen Cert.ReferenceIdeal.Read Idealize.ShloMosaic Idealize.ShloMosaic.ValueIdx Cert.Adapters

/-- Two rank-1 index functions agree when their coordinates do. -/
local macro "idx1" : tactic => `(tactic| (funext a; match a with | ⟨0, _⟩ => rfl))
/-- Two rank-2 index functions agree when their coordinates do. -/
local macro "idx2" : tactic => `(tactic| (funext a; match a with | ⟨0, _⟩ => rfl | ⟨1, _⟩ => rfl))
/-- Two rank-3 index functions agree when their coordinates do. -/
local macro "idx3" : tactic => `(tactic| (funext a; match a with | ⟨0, _⟩ => rfl | ⟨1, _⟩ => rfl | ⟨2, _⟩ => rfl))

variable (x0 : (⟨S16384x4096, .f32⟩ : BufTy).Contents (Elt Ideal)) (x1 : (⟨S4096x4096, .f32⟩ : BufTy).Contents (Elt Ideal))
  (x2 : (⟨S4096, .f32⟩ : BufTy).Contents (Elt Ideal)) (x3 : (⟨S4x16x4096, .f32⟩ : BufTy).Contents (Elt Ideal))
  (x4 : (⟨S4x4096x16, .f32⟩ : BufTy).Contents (Elt Ideal)) (x5 : (⟨S4, .f32⟩ : BufTy).Contents (Elt Ideal))
  (x6 : (⟨S4x16x4096, .f32⟩ : BufTy).Contents (Elt Ideal)) (x7 : (⟨S4x4096x16, .f32⟩ : BufTy).Contents (Elt Ideal))
  (x8 : (⟨S4x16, .f32⟩ : BufTy).Contents (Elt Ideal)) (x9 : (⟨S4x4096, .f32⟩ : BufTy).Contents (Elt Ideal))
  (x10 : (⟨S4, .f32⟩ : BufTy).Contents (Elt Ideal))

/-- The base product plus bias at row `s`, column `o`: the transposed weight read at `(k, o)` is the weight at `(o, k)`, and the
    bias, broadcast down the rows, is read at `o`. -/
theorem base_at (s : Fin 16384) (o : Fin 4096) :
    val_main_v4 (F := Ideal) x0 x1 x2 (ix2 s o) = (∑ k : Fin 4096, x0 (ix2 s k) * x1 (ix2 o k)) + x2 (ix1 o) := by
  rw [val_main_v4_apply]
  show val_main_v1 (F := Ideal) x0 x1 (ix2 s o) + val_main_v3 (F := Ideal) x2 (ix2 s o) = _
  rw [val_main_v1_apply, val_main_v3_apply, val_main_v2_apply]
  rw [show idx_main_v2 (idx_main_v3 (ix2 s o)) = ix1 o from by idx1]
  refine congrArg (· + x2 (ix1 o)) (Finset.sum_congr rfl fun k _ => ?_)
  rw [val_main_v0_apply, show lidx_main_v1 (ix2 s o) k = ix2 s k from by idx2,
    show idx_main_v0 (ridx_main_v1 (ix2 s o) k) = ix2 o k from by idx2]

/-! ## The first four segments -/

/-- Row `r` of segment `g` of the first four, read through the reshape and the slice, is row `s = g * 2048 + r` of the data. -/
theorem seg_lo_at (g : Fin 4) (r : Fin 2048) (k : Fin 4096) (s : Fin 16384) (hs : g.val * 2048 + r.val = s.val) :
    val_main_v6 (F := Ideal) x0 (ix3 g r k) = x0 (ix2 s k) := by
  rw [val_main_v6_apply, val_main_v5_apply]
  have hg := g.isLt; have hr := r.isLt; have hk := k.isLt
  refine congrArg x0 (funext fun a => Fin.ext ?_)
  match a with
  | ⟨0, _⟩ => show ((g.val * 2048 + r.val) * 4096 + k.val) / 4096 = s.val; omega
  | ⟨1, _⟩ => show ((g.val * 2048 + r.val) * 4096 + k.val) % 4096 = k.val; omega

/-- The hidden vector of such a row: the row contracted with the segment's first factor over all 4096 input columns. -/
theorem hid_lo_at (g : Fin 4) (r : Fin 2048) (q : Fin 16) (s : Fin 16384) (hs : g.val * 2048 + r.val = s.val) :
    val_main_v7 (F := Ideal) x0 x3 (ix3 g r q) = ∑ k : Fin 4096, x0 (ix2 s k) * x3 (ix3 g q k) := by
  rw [val_main_v7_apply]
  refine Finset.sum_congr rfl fun k _ => ?_
  rw [show lidx_main_v7 (ix3 g r q) k = ix3 g r k from by idx3, show ridx_main_v7 (ix3 g r q) k = ix3 g q k from by idx3,
    seg_lo_at x0 g r k s hs]

/-- The correction of such a row: the hidden vector contracted with the second factor over the 16 ranks, times the
    segment's scale (broadcast over rows and columns, so read at `g` alone). -/
theorem lora_at (g : Fin 4) (r : Fin 2048) (o : Fin 4096) (s : Fin 16384) (hs : g.val * 2048 + r.val = s.val) :
    val_main_v11 (F := Ideal) x0 x3 x4 x5 (ix3 g r o) = loraRef x0 x3 x4 x5 g s o := by
  rw [val_main_v11_apply]
  show val_main_v8 (F := Ideal) x0 x3 x4 (ix3 g r o) * val_main_v10 (F := Ideal) x5 (ix3 g r o) = _
  rw [val_main_v8_apply, val_main_v10_apply, val_main_v9_apply]
  rw [show idx_main_v9 (idx_main_v10 (ix3 g r o)) = ix1 g from by idx1]
  unfold loraRef
  refine congrArg (· * x5 (ix1 g)) (Finset.sum_congr rfl fun q _ => ?_)
  rw [show lidx_main_v8 (ix3 g r o) q = ix3 g r q from by idx3, show ridx_main_v8 (ix3 g r o) q = ix3 g o q from by idx3,
    hid_lo_at x0 x3 g r q s hs]

/-! ## The last four segments -/

/-- Row `r` of segment `4 + g`, read through the reshape and the slice, is row `s = (4 + g) * 2048 + r` of the data. -/
theorem seg_hi_at (g : Fin 4) (r : Fin 2048) (k : Fin 4096) (s : Fin 16384) (hs : (4 + g.val) * 2048 + r.val = s.val) :
    val_main_v12 (F := Ideal) x0 (ix3 g r k) = x0 (ix2 s k) := by
  rw [val_main_v12_apply, val_main_v5_apply]
  have hg := g.isLt; have hr := r.isLt; have hk := k.isLt
  refine congrArg x0 (funext fun a => Fin.ext ?_)
  match a with
  | ⟨0, _⟩ => show (((4 + g.val) * 2048 + r.val) * 4096 + k.val) / 4096 = s.val; omega
  | ⟨1, _⟩ => show (((4 + g.val) * 2048 + r.val) * 4096 + k.val) % 4096 = k.val; omega

/-- The scaled row: every entry times the segment's input scale. -/
theorem scaled_hi_at (g : Fin 4) (r : Fin 2048) (k : Fin 4096) (s : Fin 16384) (hs : (4 + g.val) * 2048 + r.val = s.val) :
    val_main_v15 (F := Ideal) x0 x10 (ix3 g r k) = x0 (ix2 s k) * x10 (ix1 g) := by
  rw [val_main_v15_apply]
  show val_main_v12 (F := Ideal) x0 (ix3 g r k) * val_main_v14 (F := Ideal) x10 (ix3 g r k) = _
  rw [val_main_v14_apply, val_main_v13_apply, seg_hi_at x0 g r k s hs,
    show idx_main_v13 (idx_main_v14 (ix3 g r k)) = ix1 g from by idx1]

/-- The hidden vector of such a row, scaled per rank. -/
theorem hid_hi_at (g : Fin 4) (r : Fin 2048) (q : Fin 16) (s : Fin 16384) (hs : (4 + g.val) * 2048 + r.val = s.val) :
    val_main_v19 (F := Ideal) x0 x6 x8 x10 (ix3 g r q)
      = (∑ k : Fin 4096, (x0 (ix2 s k) * x10 (ix1 g)) * x6 (ix3 g q k)) * x8 (ix2 g q) := by
  rw [val_main_v19_apply]
  show val_main_v16 (F := Ideal) x0 x6 x10 (ix3 g r q) * val_main_v18 (F := Ideal) x8 (ix3 g r q) = _
  rw [val_main_v16_apply, val_main_v18_apply, val_main_v17_apply,
    show idx_main_v17 (idx_main_v18 (ix3 g r q)) = ix2 g q from by idx2]
  refine congrArg (· * x8 (ix2 g q)) (Finset.sum_congr rfl fun k _ => ?_)
  rw [show lidx_main_v16 (ix3 g r q) k = ix3 g r k from by idx3, show ridx_main_v16 (ix3 g r q) k = ix3 g q k from by idx3,
    scaled_hi_at x0 x10 g r k s hs]

/-- The correction of such a row: the scaled hidden vector contracted with the second factor over the 16 ranks, times the
    per-column output scale. -/
theorem vera_at (g : Fin 4) (r : Fin 2048) (o : Fin 4096) (s : Fin 16384) (hs : (4 + g.val) * 2048 + r.val = s.val) :
    val_main_v23 (F := Ideal) x0 x6 x7 x8 x9 x10 (ix3 g r o) = veraRef x0 x6 x7 x8 x9 x10 g s o := by
  rw [val_main_v23_apply]
  show val_main_v20 (F := Ideal) x0 x6 x7 x8 x10 (ix3 g r o) * val_main_v22 (F := Ideal) x9 (ix3 g r o) = _
  rw [val_main_v20_apply, val_main_v22_apply, val_main_v21_apply,
    show idx_main_v21 (idx_main_v22 (ix3 g r o)) = ix2 g o from by idx2]
  unfold veraRef
  refine congrArg (· * x9 (ix2 g o)) (Finset.sum_congr rfl fun q _ => ?_)
  rw [show lidx_main_v20 (ix3 g r o) q = ix3 g r q from by idx3, show ridx_main_v20 (ix3 g r o) q = ix3 g o q from by idx3,
    hid_hi_at x0 x6 x8 x10 g r q s hs]

/-! ## The whole reference -/

/-- The reference at row `s`, column `o`. Flattened back to rows, entry `(s, o)` of the joined corrections is entry
    `(s / 2048, s % 2048, o)`; its segment coordinate falls in the first piece when `s / 2048 < 4` and otherwise in the second, four
    segments further on. -/
theorem ref_at (s : Fin 16384) (o : Fin 4096) :
    val_main_v26 (F := Ideal) x0 x1 x2 x3 x4 x5 x6 x7 x8 x9 x10 (ix2 s o) = refFun x0 x1 x2 x3 x4 x5 x6 x7 x8 x9 x10 s o := by
  rw [val_main_v26_apply]
  show val_main_v4 (F := Ideal) x0 x1 x2 (ix2 s o) + val_main_v25 (F := Ideal) x0 x3 x4 x5 x6 x7 x8 x9 x10 (ix2 s o) = _
  rw [base_at, val_main_v25_apply]
  unfold refFun
  refine congrArg (((∑ k : Fin 4096, x0 (ix2 s k) * x1 (ix2 o k)) + x2 (ix1 o)) + ·) ?_
  have hs := s.isLt; have ho := o.isLt
  have e : idx_main_v25 (ix2 s o)
      = ix3 (⟨s.val / 2048, by omega⟩ : Fin 8) (⟨s.val % 2048, by omega⟩ : Fin 2048) o := by
    funext a; apply Fin.ext
    match a with
    | ⟨0, _⟩ => show (s.val * 4096 + o.val) / 8388608 = s.val / 2048; omega
    | ⟨1, _⟩ => show (s.val * 4096 + o.val) / 4096 % 2048 = s.val % 2048; omega
    | ⟨2, _⟩ => show (s.val * 4096 + o.val) % 4096 = o.val; omega
  rw [e]
  unfold val_main_v24
  by_cases h : s.val / 2048 < 4
  · rw [dif_pos h]
    refine (concatenate_pair_apply_left (t := S8x2048x4096) (s₁ := S4x2048x4096) (s₂ := S4x2048x4096) (0 : Fin 3) (val_main_v11 (F := Ideal) x0 x3 x4 x5)
      (val_main_v23 (F := Ideal) x0 x6 x7 x8 x9 x10) concatenates_S4x2048x4096_S4x2048x4096_S8x2048x4096_d0 _ rfl
      (ix3 (⟨s.val / 2048, h⟩ : Fin 4) (⟨s.val % 2048, by omega⟩ : Fin 2048) o)
      (fun b => match b with | ⟨0, _⟩ => rfl | ⟨1, _⟩ => rfl | ⟨2, _⟩ => rfl)).trans ?_
    exact lora_at x0 x3 x4 x5 _ _ o s (by show s.val / 2048 * 2048 + s.val % 2048 = s.val; omega)
  · rw [dif_neg h]
    refine (concatenate_pair_apply_right (t := S8x2048x4096) (s₁ := S4x2048x4096) (s₂ := S4x2048x4096) (0 : Fin 3) (val_main_v11 (F := Ideal) x0 x3 x4 x5)
      (val_main_v23 (F := Ideal) x0 x6 x7 x8 x9 x10) concatenates_S4x2048x4096_S4x2048x4096_S8x2048x4096_d0 _ rfl rfl
      (ix3 (⟨s.val / 2048 - 4, by omega⟩ : Fin 4) (⟨s.val % 2048, by omega⟩ : Fin 2048) o)
      (fun b => match b with
        | ⟨0, _⟩ => fun hb => absurd rfl hb
        | ⟨1, _⟩ => fun _ => rfl
        | ⟨2, _⟩ => fun _ => rfl)
      (by show s.val / 2048 - 4 + 4 = s.val / 2048; omega)).trans ?_
    exact vera_at x0 x6 x7 x8 x9 x10 _ _ o s (by show (4 + (s.val / 2048 - 4)) * 2048 + s.val % 2048 = s.val; omega)

/-- The reference's result, as a function of its eleven arguments, is the layer as stated. -/
theorem ref_eq :
    val_main_v26 (F := Ideal) x0 x1 x2 x3 x4 x5 x6 x7 x8 x9 x10
      = fun i => refFun x0 x1 x2 x3 x4 x5 x6 x7 x8 x9 x10 (i 0) (i 1) := by
  funext i
  obtain ⟨s, o, rfl⟩ : ∃ s o, i = ix2 s o := ⟨i 0, i 1, eq_ix2 i⟩
  exact ref_at x0 x1 x2 x3 x4 x5 x6 x7 x8 x9 x10 s o

end Cert.Adapters.Ref

end
-- ==== Proof.KernelPieces.lean ====
/-
  What one grid step of the blocked evaluation leaves behind, as values.

  A step holds an output tile (2048 rows by 1024 columns) and a hidden tile (2048 rows by 16 ranks). Every step adds
  to the output tile the product of the current row block with the current weight block, and to the hidden tile the
  product of the row block with the current first-factor block. The first of four steps starts both tiles from zero;
  the last step then adds to the output tile the hidden tile contracted against the second-factor block, and the bias
  row. Each lemma below reads the stores of one kind of step back as one such expression of the blocks it loaded and of
  what the tiles held before.
-/
import proofs.«109911_j16733192585553_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The origin of a rank-2 tile. -/
theorem hz2 : (![0, 0] : Fin 2 → Nat) = fun _ => 0 := funext fun a => by fin_cases a <;> rfl

variable (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x16x1024 .bf16) (harg5 : arg5.IsWhole) (arg6 : Memref sig .tc .vmem S1x1024x16 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x16 .f32) (harg9 : arg9.IsWhole)
  (x0 : Vec F S2048x1024 .bf16) (x1 : Vec F S1024x1024 .bf16) (x2 : Vec F S1x16x1024 .bf16) (x3 : Vec F S1x1024x16 .bf16) (x4 : Vec F S1x1024 .f32) (xo5 : Vec F S2048x1024 .f32) (xs0 : Vec F S2048x16 .f32)

/-- The origin of a rank-3 tile. -/
theorem hz3 : (![0, 0, 0] : Fin 3 → Nat) = fun _ => 0 := funext fun a => by fin_cases a <;> rfl

/-- A middle step leaves in the output tile what it held plus the block product. -/
theorem out_B (hc0 : ¬cond0_0 i) (hc1 : ¬cond0_1 i) :
    out0_B_5 c i arg3 harg3 arg4 harg4 arg5 harg5 arg6 harg6 arg7 harg7 arg8 harg8 arg9 harg9 hc0 hc1 x0 x1 x2 x3 x4 xo5 xs0 = k0_pay4 x0 x1 xo5 := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xo5 xs0)]
  unfold kernelRun0_B
  dsimp only
  rw [View.canon_unit_zero hz2]
  simp only [View.readAt_eq_ld, harg3.read_unread, harg4.read_unread, harg8.read_unread, View.ld_unit_zero (S := S2048x1024) hz2, View.ld_unit_zero (S := S1024x1024) hz2]

/-- A middle step leaves in the hidden tile what it held plus the block product with the first factor. -/
theorem sout_B (hc0 : ¬cond0_0 i) (hc1 : ¬cond0_1 i) :
    sout0_B_0 c i arg3 harg3 arg4 harg4 arg5 harg5 arg6 harg6 arg7 harg7 arg8 harg8 arg9 harg9 hc0 hc1 x0 x1 x2 x3 x4 xo5 xs0 = k0_pay5 x0 x2 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xo5 xs0)]
  unfold kernelRun0_B
  dsimp only
  rw [View.canon_unit_zero hz2]
  simp only [View.readAt_eq_ld, harg3.read_unread, harg5.read_unread, harg9.read_unread, View.ld_unit_zero (S := S2048x1024) hz2, View.ld_unit_zero (S := S2048x16) hz2, View.ld_unit_zero (S := S1x16x1024) hz3]

/-- A first step leaves in the output tile zero plus the block product. -/
theorem out_A (hc0 : cond0_0 i) (hc1 : ¬cond0_1 i) :
    out0_A_5 c i arg3 harg3 arg4 harg4 arg5 harg5 arg6 harg6 arg7 harg7 arg8 harg8 arg9 harg9 hc0 hc1 x0 x1 x2 x3 x4 = k0_pay4 x0 x1 (k0_pay1 (F := F)) := by
  unfold out0_A_5
  rw [View.read_writes_eq_canon _ _ _ (cover0_A_5 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S2048x1024) hz2, View.readCov_unit_zero (S := S2048x1024) _ hz2]
  simp only [View.readAt_eq_ld, harg3.read_unread, harg4.read_unread, View.ld_unit_zero (S := S2048x1024) hz2, View.ld_unit_zero (S := S1024x1024) hz2]

/-- A first step leaves in the hidden tile zero plus the block product with the first factor. -/
theorem sout_A (hc0 : cond0_0 i) (hc1 : ¬cond0_1 i) :
    sout0_A_0 c i arg3 harg3 arg4 harg4 arg5 harg5 arg6 harg6 arg7 harg7 arg8 harg8 arg9 harg9 hc0 hc1 x0 x1 x2 x3 x4 = k0_pay5 x0 x2 (k0_pay2 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S2048x16) hz2, View.readCov_unit_zero (S := S2048x16) _ hz2]
  simp only [View.readAt_eq_ld, harg3.read_unread, harg5.read_unread, View.ld_unit_zero (S := S2048x1024) hz2, View.ld_unit_zero (S := S1x16x1024) hz3]

/-- A last step leaves in the output tile the accumulated product, plus the updated hidden tile contracted against
    the second factor, plus the bias row. -/
theorem out_C (hc0 : ¬cond0_0 i) (hc1 : cond0_1 i) :
    out0_C_5 c i arg3 harg3 arg4 harg4 arg5 harg5 arg6 harg6 arg7 harg7 arg8 harg8 arg9 harg9 hc0 hc1 x0 x1 x2 x3 x4 xo5 xs0 = k0_pay6 x3 (k0_pay5 x0 x2 xs0) (k0_pay4 x0 x1 xo5) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xo5 xs0)]
  unfold kernelRun0_C
  dsimp only
  sl_unfold_words
  rw [View.canon_cons_unit_zero (S := S2048x1024) hz2, View.readCov_unit_zero (S := S2048x1024) _ hz2, View.readCov_unit_zero (S := S2048x16) _ hz2]
  simp only [View.readAt_eq_ld, harg3.read_unread, harg4.read_unread, harg5.read_unread, harg6.read_unread, harg7.read_unread, harg8.read_unread, harg9.read_unread, View.ld_unit_zero (S := S2048x1024) hz2, View.ld_unit_zero (S := S1024x1024) hz2, View.ld_unit_zero (S := S2048x16) hz2, View.ld_unit_zero (S := S1x1024) hz2, View.ld_unit_zero (S := S1x16x1024) hz3, View.ld_unit_zero (S := S1x1024x16) hz3]

/-- A last step updates the hidden tile like every other step. -/
theorem sout_C (hc0 : ¬cond0_0 i) (hc1 : cond0_1 i) :
    sout0_C_0 c i arg3 harg3 arg4 harg4 arg5 harg5 arg6 harg6 arg7 harg7 arg8 harg8 arg9 harg9 hc0 hc1 x0 x1 x2 x3 x4 xo5 xs0 = k0_pay5 x0 x2 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xo5 xs0)]
  unfold kernelRun0_C
  dsimp only
  sl_unfold_words
  rw [View.canon_unit_zero hz2]
  simp only [View.readAt_eq_ld, harg3.read_unread, harg5.read_unread, harg9.read_unread, View.ld_unit_zero (S := S2048x1024) hz2, View.ld_unit_zero (S := S2048x16) hz2, View.ld_unit_zero (S := S1x16x1024) hz3]

end Cert.KernelIdeal.Pieces
end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.KernelPayloads.lean ====
/-
  The arithmetic of one grid step, read at an entry over the extended reals.

  With a row block `x` (2048 by 1024), a weight block `w` (1024 by 1024), a first-factor block `a` (16 by 1024, kept
  with a leading unit axis), a second-factor block `b` (1024 by 16, kept with a leading unit axis) and a bias row
  `v` (1 by 1024):
    the base update at `(r, c)` is the old entry plus `∑ l, x r l * w c l`;
    the hidden update at `(r, q)` is the old entry plus `∑ l, x r l * a q l`;
    the closing update at `(r, c)` is the old entry plus `∑ q, h r q * b c q`, plus `v c`.
  A change of float format is the identity on extended reals, and a product accumulated into the zero matrix is the
  plain sum of products.
-/
import proofs.«109911_j16733192585553_2_alg».proof.Proof.Gen.KernelIdeal.Skeleton
import proofs.«109911_j16733192585553_2_alg».proof.Proof.LibGram
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-! The three products contract axis 1 of both operands: the entry of each operand that output entry `(p, q)` and
    contracted coordinate `l` select. -/

theorem base_l0 (j : S2048x1024.Idx) (q : dot_S2048x1024_S1024x1024_S2048x1024_1_1_0_0_n_n.contr.Idx) : (dot_S2048x1024_S1024x1024_S2048x1024_1_1_0_0_n_n.lhsIdx j q 0).val = (j 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem base_r0 (j : S2048x1024.Idx) (q : dot_S2048x1024_S1024x1024_S2048x1024_1_1_0_0_n_n.contr.Idx) : (dot_S2048x1024_S1024x1024_S2048x1024_1_1_0_0_n_n.rhsIdx j q 0).val = (j 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl

/-- The base product pairs output entry `(r, c)` and column `l` with `x r l` -/
theorem base_lhs (j : S2048x1024.Idx) (l : Fin 1024) :
    dot_S2048x1024_S1024x1024_S2048x1024_1_1_0_0_n_n.lhsIdx j ((contrEquiv1 dot_S2048x1024_S1024x1024_S2048x1024_1_1_0_0_n_n 1024 rfl rfl).symm l) = ix2 (j 0) l :=
  funext fun a => Fin.ext (by
    match a with
    | ⟨0, _⟩ => exact base_l0 _ _
    | ⟨1, _⟩ => exact (dot_S2048x1024_S1024x1024_S2048x1024_1_1_0_0_n_n.lhsIdx_val_of_single rfl j _).trans (contrEquiv1_symm_val dot_S2048x1024_S1024x1024_S2048x1024_1_1_0_0_n_n 1024 rfl rfl l))

/-- … and with `w c l`. -/
theorem base_rhs (j : S2048x1024.Idx) (l : Fin 1024) :
    dot_S2048x1024_S1024x1024_S2048x1024_1_1_0_0_n_n.rhsIdx j ((contrEquiv1 dot_S2048x1024_S1024x1024_S2048x1024_1_1_0_0_n_n 1024 rfl rfl).symm l) = ix2 (j 1) l :=
  funext fun a => Fin.ext (by
    match a with
    | ⟨0, _⟩ => exact base_r0 _ _
    | ⟨1, _⟩ => exact (dot_S2048x1024_S1024x1024_S2048x1024_1_1_0_0_n_n.rhsIdx_val_of_single rfl j _).trans (contrEquiv1_symm_val dot_S2048x1024_S1024x1024_S2048x1024_1_1_0_0_n_n 1024 rfl rfl l))

theorem hid_l0 (j : S2048x16.Idx) (q : dot_S2048x1024_S16x1024_S2048x16_1_1_0_0_n_n.contr.Idx) : (dot_S2048x1024_S16x1024_S2048x16_1_1_0_0_n_n.lhsIdx j q 0).val = (j 0).val := by
  unfold DotDims.lhsIdx
  rw [dif_neg (show ¬(0 : Fin S2048x1024.rank) ∈ dot_S2048x1024_S16x1024_S2048x16_1_1_0_0_n_n.lhsBatch by decide), dif_pos (show (0 : Fin S2048x1024.rank) ∈ dot_S2048x1024_S16x1024_S2048x16_1_1_0_0_n_n.lhsNonContracting by decide)]
  rfl
theorem hid_r0 (j : S2048x16.Idx) (q : dot_S2048x1024_S16x1024_S2048x16_1_1_0_0_n_n.contr.Idx) : (dot_S2048x1024_S16x1024_S2048x16_1_1_0_0_n_n.rhsIdx j q 0).val = (j 1).val := by
  unfold DotDims.rhsIdx
  rw [dif_neg (show ¬(0 : Fin S16x1024.rank) ∈ dot_S2048x1024_S16x1024_S2048x16_1_1_0_0_n_n.rhsBatch by decide), dif_pos (show (0 : Fin S16x1024.rank) ∈ dot_S2048x1024_S16x1024_S2048x16_1_1_0_0_n_n.rhsNonContracting by decide)]
  rfl

/-- The hidden product pairs entry `(r, q)` and column `l` with `x r l` -/
theorem hid_lhs (j : S2048x16.Idx) (l : Fin 1024) :
    dot_S2048x1024_S16x1024_S2048x16_1_1_0_0_n_n.lhsIdx j ((contrEquiv1 dot_S2048x1024_S16x1024_S2048x16_1_1_0_0_n_n 1024 rfl rfl).symm l) = ix2 (j 0) l :=
  funext fun a => Fin.ext (by
    match a with
    | ⟨0, _⟩ => exact hid_l0 _ _
    | ⟨1, _⟩ => exact (dot_S2048x1024_S16x1024_S2048x16_1_1_0_0_n_n.lhsIdx_val_of_single rfl j _).trans (contrEquiv1_symm_val dot_S2048x1024_S16x1024_S2048x16_1_1_0_0_n_n 1024 rfl rfl l))

/-- … and with `a q l`. -/
theorem hid_rhs (j : S2048x16.Idx) (l : Fin 1024) :
    dot_S2048x1024_S16x1024_S2048x16_1_1_0_0_n_n.rhsIdx j ((contrEquiv1 dot_S2048x1024_S16x1024_S2048x16_1_1_0_0_n_n 1024 rfl rfl).symm l) = ix2 (j 1) l :=
  funext fun a => Fin.ext (by
    match a with
    | ⟨0, _⟩ => exact hid_r0 _ _
    | ⟨1, _⟩ => exact (dot_S2048x1024_S16x1024_S2048x16_1_1_0_0_n_n.rhsIdx_val_of_single rfl j _).trans (contrEquiv1_symm_val dot_S2048x1024_S16x1024_S2048x16_1_1_0_0_n_n 1024 rfl rfl l))

theorem cor_l0 (j : S2048x1024.Idx) (q : dot_S2048x16_S1024x16_S2048x1024_1_1_0_0_n_n.contr.Idx) : (dot_S2048x16_S1024x16_S2048x1024_1_1_0_0_n_n.lhsIdx j q 0).val = (j 0).val := by
  unfold DotDims.lhsIdx
  rw [dif_neg (show ¬(0 : Fin S2048x16.rank) ∈ dot_S2048x16_S1024x16_S2048x1024_1_1_0_0_n_n.lhsBatch by decide), dif_pos (show (0 : Fin S2048x16.rank) ∈ dot_S2048x16_S1024x16_S2048x1024_1_1_0_0_n_n.lhsNonContracting by decide)]
  rfl
theorem cor_r0 (j : S2048x1024.Idx) (q : dot_S2048x16_S1024x16_S2048x1024_1_1_0_0_n_n.contr.Idx) : (dot_S2048x16_S1024x16_S2048x1024_1_1_0_0_n_n.rhsIdx j q 0).val = (j 1).val := by
  unfold DotDims.rhsIdx
  rw [dif_neg (show ¬(0 : Fin S1024x16.rank) ∈ dot_S2048x16_S1024x16_S2048x1024_1_1_0_0_n_n.rhsBatch by decide), dif_pos (show (0 : Fin S1024x16.rank) ∈ dot_S2048x16_S1024x16_S2048x1024_1_1_0_0_n_n.rhsNonContracting by decide)]
  rfl

/-- The closing product pairs entry `(r, c)` and rank `q` with `h r q` -/
theorem cor_lhs (j : S2048x1024.Idx) (l : Fin 16) :
    dot_S2048x16_S1024x16_S2048x1024_1_1_0_0_n_n.lhsIdx j ((contrEquiv1 dot_S2048x16_S1024x16_S2048x1024_1_1_0_0_n_n 16 rfl rfl).symm l) = ix2 (j 0) l :=
  funext fun a => Fin.ext (by
    match a with
    | ⟨0, _⟩ => exact cor_l0 _ _
    | ⟨1, _⟩ => exact (dot_S2048x16_S1024x16_S2048x1024_1_1_0_0_n_n.lhsIdx_val_of_single rfl j _).trans (contrEquiv1_symm_val dot_S2048x16_S1024x16_S2048x1024_1_1_0_0_n_n 16 rfl rfl l))

/-- … and with `b c q`. -/
theorem cor_rhs (j : S2048x1024.Idx) (l : Fin 16) :
    dot_S2048x16_S1024x16_S2048x1024_1_1_0_0_n_n.rhsIdx j ((contrEquiv1 dot_S2048x16_S1024x16_S2048x1024_1_1_0_0_n_n 16 rfl rfl).symm l) = ix2 (j 1) l :=
  funext fun a => Fin.ext (by
    match a with
    | ⟨0, _⟩ => exact cor_r0 _ _
    | ⟨1, _⟩ => exact (dot_S2048x16_S1024x16_S2048x1024_1_1_0_0_n_n.rhsIdx_val_of_single rfl j _).trans (contrEquiv1_symm_val dot_S2048x16_S1024x16_S2048x1024_1_1_0_0_n_n 16 rfl rfl l))

/-- A block with a leading unit axis dropped reads, at `(p, q)`, the block at `(0, p, q)`. -/
theorem dropLead_apply {n0 n1 : ℕ} (v : (⟨3, ![1, n0, n1]⟩ : Shape).Idx → EReal)
    (h : (⟨3, ![1, n0, n1]⟩ : Shape).ShapeCasts ⟨2, ![n0, n1]⟩) (p : Fin n0) (q : Fin n1) :
    shapeCast ⟨2, ![n0, n1]⟩ v h (ix2 p q) = v (ix3 ⟨0, Nat.one_pos⟩ p q) :=
  shapeCast_apply v h _ _ (by
    rw [Shape.rowMajor_val_three, Shape.rowMajor_val_two]
    show (0 * n0 + p.val) * n1 + q.val = p.val * n1 + q.val
    rw [Nat.zero_mul, Nat.zero_add])

/-- The zero tile the first step stores into the output. -/
theorem pay1_apply (j : S2048x1024.Idx) : k0_pay1 (F := Ideal) j = 0 := by
  show Ideal.ofBits .f32 0x00000000#32 = 0
  exact Ideal.ofBits_zero_f32

/-- The zero tile the first step stores into the hidden tile. -/
theorem pay2_apply (j : S2048x16.Idx) : k0_pay2 (F := Ideal) j = 0 := by
  unfold k0_pay2
  rw [shapeCast_self]
  show Ideal.ofBits .f32 0x00000000#32 = 0
  exact Ideal.ofBits_zero_f32

/-- The base update at an entry. -/
theorem pay4_apply (x : Vec Ideal S2048x1024 .bf16) (w : Vec Ideal S1024x1024 .bf16) (acc : Vec Ideal S2048x1024 .f32)
    (r : Fin 2048) (c : Fin 1024) :
    k0_pay4 x w acc (ix2 r c) = acc (ix2 r c) + ∑ l : Fin 1024, x (ix2 r l) * w (ix2 c l) := by
  unfold k0_pay4 k0_pay3
  simp only [shapeCast_self]
  refine (addf_apply _ _ _).trans ?_
  refine congrArg (acc (ix2 r c) + ·) ?_
  exact Cert.Lib.Gram.matmul_zero_single_apply dot_S2048x1024_S1024x1024_S2048x1024_1_1_0_0_n_n 1024 rfl rfl none x w (ix2 r c)
    (fun l => ix2 r l) (fun l => ix2 c l) (fun l => base_lhs (ix2 r c) l) (fun l => base_rhs (ix2 r c) l)

/-- The hidden update at an entry. -/
theorem pay5_apply (x : Vec Ideal S2048x1024 .bf16) (a : Vec Ideal S1x16x1024 .bf16) (acc : Vec Ideal S2048x16 .f32)
    (r : Fin 2048) (q : Fin 16) :
    k0_pay5 x a acc (ix2 r q) = acc (ix2 r q) + ∑ l : Fin 1024, x (ix2 r l) * a (ix3 ⟨0, Nat.one_pos⟩ q l) := by
  unfold k0_pay5 k0_pay3
  simp only [shapeCast_self]
  refine (addf_apply _ _ _).trans ?_
  refine congrArg (acc (ix2 r q) + ·) ?_
  refine (Cert.Lib.Gram.matmul_zero_single_apply dot_S2048x1024_S16x1024_S2048x16_1_1_0_0_n_n 1024 rfl rfl none x _ (ix2 r q)
    (fun l => ix2 r l) (fun l => ix2 q l) (fun l => hid_lhs (ix2 r q) l) (fun l => hid_rhs (ix2 r q) l)).trans ?_
  exact Finset.sum_congr rfl fun l _ => congrArg (x (ix2 r l) * ·) (dropLead_apply a _ q l)

/-- The closing update at an entry. -/
theorem pay6_apply (b : Vec Ideal S1x1024x16 .bf16) (h : Vec Ideal S2048x16 .f32) (acc : Vec Ideal S2048x1024 .f32)
    (v : Vec Ideal S1x1024 .f32) (r : Fin 2048) (c : Fin 1024) :
    k0_pay6 b h acc v (ix2 r c)
      = (acc (ix2 r c) + ∑ q : Fin 16, h (ix2 r q) * b (ix3 ⟨0, Nat.one_pos⟩ c q)) + v (ix2 ⟨0, Nat.one_pos⟩ c) := by
  unfold k0_pay6
  simp only [shapeCast_self]
  refine (addf_apply _ _ _).trans ?_
  refine congr (congrArg (· + ·) ((addf_apply _ _ _).trans (congrArg (acc (ix2 r c) + ·) ?_))) ?_
  · refine (Cert.Lib.Gram.matmul_zero_single_apply dot_S2048x16_S1024x16_S2048x1024_1_1_0_0_n_n 16 rfl rfl none
      (truncf .bf16 h bitsLt_bf16_f32) _ (ix2 r c)
      (fun q => ix2 r q) (fun q => ix2 c q) (fun q => cor_lhs (ix2 r c) q) (fun q => cor_rhs (ix2 r c) q)).trans ?_
    exact Finset.sum_congr rfl fun q _ => congrArg (h (ix2 r q) * ·) (dropLead_apply b _ c q)
  · exact broadcastTo_apply v broadcasts_S1x1024_S2048x1024 (ix2 r c) (ix2 ⟨0, Nat.one_pos⟩ c) (fun a => by
      match a with
      | ⟨0, _⟩ => show (0 : ℕ) = if (1 : ℕ) = 1 then 0 else _; rw [if_pos rfl]
      | ⟨1, _⟩ => show c.val = if (1024 : ℕ) = 1 then 0 else c.val; rw [if_neg (by decide)])

end Cert.KernelIdeal.Payloads

end
-- ==== Proof.KernelSteps.lean ====
/-
  The output tile and the hidden tile after each grid step, and after a whole run of four.

  The grid visits, for each pair of a row block and a column block, four steps `k = 0, 1, 2, 3` in a row (a step's
  position modulo 4 is `k`). Step `k = 0` starts both tiles from zero; every step adds its block products; step `k = 3`
  closes with the rank contraction and the bias. So after the fourth step an entry of the output tile is

      ((((0 + P₀) + P₁) + P₂) + P₃  +  ∑ q, ((((0 + Q₀ q) + Q₁ q) + Q₂ q) + Q₃ q) * b q)  +  v

  with `P_k` the step-`k` base product at that entry, `Q_k q` the step-`k` hidden product at rank `q`, `b` the
  second-factor block and `v` the bias block of the closing step.
-/
import proofs.«109911_j16733192585553_2_alg».proof.Proof.Gen.KernelIdeal.Frame
import proofs.«109911_j16733192585553_2_alg».proof.Proof.KernelPieces
import proofs.«109911_j16733192585553_2_alg».proof.Proof.KernelPayloads

noncomputable section

open scoped BigOperators

namespace Cert.KernelIdeal.Steps

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (c : Dev nD)

/-- The step before step `t`. -/
def prev (t : Fin cfg0.N) : Fin cfg0.N := ⟨t.val - 1, Nat.lt_of_le_of_lt (Nat.sub_le _ _) t.isLt⟩

/-- Both tiles after a first step. -/
theorem step_first (t : Fin cfg0.N) (h0 : t.val % 4 = 0) :
    outsAt0 m c t.val t.isLt = (k0_pay4 (iblk m c 0 t) (iblk m c 1 t) (k0_pay1 (F := Ideal)), k0_pay5 (iblk m c 0 t) (iblk m c 2 t) (k0_pay2 (F := Ideal))) := by
  have h1 : ¬t.val % 4 = 3 := by omega
  rw [outsAt0_A m c t h0 h1]
  exact congr (congrArg Prod.mk (Pieces.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) _ _)) (Pieces.sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) _ _)

/-- Both tiles after a middle step, over what the step before left. -/
theorem step_mid (t : Fin cfg0.N) (h0 : ¬t.val % 4 = 0) (h1 : ¬t.val % 4 = 3) :
    outsAt0 m c t.val t.isLt = (k0_pay4 (iblk m c 0 t) (iblk m c 1 t) (outsAt0 m c (prev t).val (prev t).isLt).1,
      k0_pay5 (iblk m c 0 t) (iblk m c 2 t) (outsAt0 m c (prev t).val (prev t).isLt).2) := by
  rw [outsAt0_B m c t h0 h1]
  exact congr (congrArg Prod.mk (Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) _ _ _ _)) (Pieces.sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) _ _ _ _)

/-- Both tiles after a closing step, over what the step before left. -/
theorem step_last (t : Fin cfg0.N) (h0 : ¬t.val % 4 = 0) (h1 : t.val % 4 = 3) :
    outsAt0 m c t.val t.isLt = (k0_pay6 (iblk m c 3 t) (k0_pay5 (iblk m c 0 t) (iblk m c 2 t) (outsAt0 m c (prev t).val (prev t).isLt).2)
        (k0_pay4 (iblk m c 0 t) (iblk m c 1 t) (outsAt0 m c (prev t).val (prev t).isLt).1) (iblk m c 4 t),
      k0_pay5 (iblk m c 0 t) (iblk m c 2 t) (outsAt0 m c (prev t).val (prev t).isLt).2) := by
  rw [outsAt0_C m c t h0 h1]
  exact congr (congrArg Prod.mk (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) _ _ _ _)) (Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) _ _ _ _)

/-- The row block, weight block, first-factor block, second-factor block and bias block of step `u`, as arrays of extended reals. -/
abbrev rowBlk (u : Fin cfg0.N) : S2048x1024.Idx → EReal := iblk m c 0 u
abbrev wBlk (u : Fin cfg0.N) : S1024x1024.Idx → EReal := iblk m c 1 u
abbrev aBlk (u : Fin cfg0.N) : S1x16x1024.Idx → EReal := iblk m c 2 u
abbrev bBlk (u : Fin cfg0.N) : S1x1024x16.Idx → EReal := iblk m c 3 u
abbrev vBlk (u : Fin cfg0.N) : S1x1024.Idx → EReal := iblk m c 4 u

/-- The base product of step `u` at entry `(r, p)` of the tile. -/
def P (u : Fin cfg0.N) (r : Fin 2048) (p : Fin 1024) : EReal :=
  ∑ l : Fin 1024, rowBlk m c u (ix2 r l) * wBlk m c u (ix2 p l)

/-- The hidden product of step `u` at row `r` and rank `q`. -/
def Q (u : Fin cfg0.N) (r : Fin 2048) (q : Fin 16) : EReal :=
  ∑ l : Fin 1024, rowBlk m c u (ix2 r l) * aBlk m c u (ix3 ⟨0, Nat.one_pos⟩ q l)

/-- The output tile after step `t`. -/
abbrev outTile (t : Fin cfg0.N) : S2048x1024.Idx → EReal := (outsAt0 m c t.val t.isLt).1
/-- The hidden tile after step `t`. -/
abbrev hidTile (t : Fin cfg0.N) : S2048x16.Idx → EReal := (outsAt0 m c t.val t.isLt).2

theorem out_first (t : Fin cfg0.N) (h0 : t.val % 4 = 0) (r : Fin 2048) (p : Fin 1024) :
    outTile m c t (ix2 r p) = 0 + P m c t r p := by
  show (outsAt0 m c t.val t.isLt).1 (ix2 r p) = _
  rw [step_first m c t h0]
  refine (Payloads.pay4_apply (iblk m c 0 t) (iblk m c 1 t) _ r p).trans ?_
  rw [Payloads.pay1_apply]
  rfl

theorem hid_first (t : Fin cfg0.N) (h0 : t.val % 4 = 0) (r : Fin 2048) (q : Fin 16) :
    hidTile m c t (ix2 r q) = 0 + Q m c t r q := by
  show (outsAt0 m c t.val t.isLt).2 (ix2 r q) = _
  rw [step_first m c t h0]
  refine (Payloads.pay5_apply (iblk m c 0 t) (iblk m c 2 t) _ r q).trans ?_
  rw [Payloads.pay2_apply]
  rfl

theorem out_mid (t : Fin cfg0.N) (h0 : ¬t.val % 4 = 0) (h1 : ¬t.val % 4 = 3) (r : Fin 2048) (p : Fin 1024) :
    outTile m c t (ix2 r p) = outTile m c (prev t) (ix2 r p) + P m c t r p := by
  show (outsAt0 m c t.val t.isLt).1 (ix2 r p) = _
  rw [step_mid m c t h0 h1]
  exact Payloads.pay4_apply (iblk m c 0 t) (iblk m c 1 t) _ r p

theorem hid_mid (t : Fin cfg0.N) (h0 : ¬t.val % 4 = 0) (h1 : ¬t.val % 4 = 3) (r : Fin 2048) (q : Fin 16) :
    hidTile m c t (ix2 r q) = hidTile m c (prev t) (ix2 r q) + Q m c t r q := by
  show (outsAt0 m c t.val t.isLt).2 (ix2 r q) = _
  rw [step_mid m c t h0 h1]
  exact Payloads.pay5_apply (iblk m c 0 t) (iblk m c 2 t) _ r q

theorem out_last (t : Fin cfg0.N) (h0 : ¬t.val % 4 = 0) (h1 : t.val % 4 = 3) (r : Fin 2048) (p : Fin 1024) :
    outTile m c t (ix2 r p)
      = ((outTile m c (prev t) (ix2 r p) + P m c t r p)
          + ∑ q : Fin 16, (hidTile m c (prev t) (ix2 r q) + Q m c t r q) * bBlk m c t (ix3 ⟨0, Nat.one_pos⟩ p q))
        + vBlk m c t (ix2 ⟨0, Nat.one_pos⟩ p) := by
  show (outsAt0 m c t.val t.isLt).1 (ix2 r p) = _
  rw [step_last m c t h0 h1]
  refine (Payloads.pay6_apply (iblk m c 3 t) _ _ (iblk m c 4 t) r p).trans ?_
  refine congrArg (· + _) (congr (congrArg (· + ·) (Payloads.pay4_apply (iblk m c 0 t) (iblk m c 1 t) _ r p)) ?_)
  exact Finset.sum_congr rfl fun q _ => congrArg (· * _) (Payloads.pay5_apply (iblk m c 0 t) (iblk m c 2 t) _ r q)

/-- After a closing step: the four base products and the four hidden products of the run, added in order from zero,
    the hidden sums contracted against the closing step's second-factor block, and its bias block. -/
theorem run_of_four (t : Fin cfg0.N) (h1 : t.val % 4 = 3) (r : Fin 2048) (p : Fin 1024) :
    outTile m c t (ix2 r p)
      = (((((0 + P m c (prev (prev (prev t))) r p) + P m c (prev (prev t)) r p) + P m c (prev t) r p) + P m c t r p)
          + ∑ q : Fin 16, ((((0 + Q m c (prev (prev (prev t))) r q) + Q m c (prev (prev t)) r q) + Q m c (prev t) r q) + Q m c t r q)
              * bBlk m c t (ix3 ⟨0, Nat.one_pos⟩ p q))
        + vBlk m c t (ix2 ⟨0, Nat.one_pos⟩ p) := by
  have e1 : (prev t).val = t.val - 1 := rfl
  have e2 : (prev (prev t)).val = t.val - 1 - 1 := rfl
  have e3 : (prev (prev (prev t))).val = t.val - 1 - 1 - 1 := rfl
  have a1 : ¬(prev t).val % 4 = 0 := by rw [e1]; omega
  have b1 : ¬(prev t).val % 4 = 3 := by rw [e1]; omega
  have a2 : ¬(prev (prev t)).val % 4 = 0 := by rw [e2]; omega
  have b2 : ¬(prev (prev t)).val % 4 = 3 := by rw [e2]; omega
  have a3 : (prev (prev (prev t))).val % 4 = 0 := by rw [e3]; omega
  refine (out_last m c t (by omega) h1 r p).trans (congrArg (· + _) (congr (congrArg (· + ·) (congrArg (· + P m c t r p) ?_))
    (Finset.sum_congr rfl fun q _ => congrArg (· * _) (congrArg (· + Q m c t r q) ?_))))
  · exact (out_mid m c (prev t) a1 b1 r p).trans (congrArg (· + P m c (prev t) r p)
      ((out_mid m c (prev (prev t)) a2 b2 r p).trans (congrArg (· + P m c (prev (prev t)) r p)
        (out_first m c (prev (prev (prev t))) a3 r p))))
  · exact (hid_mid m c (prev t) a1 b1 r q).trans (congrArg (· + Q m c (prev t) r q)
      ((hid_mid m c (prev (prev t)) a2 b2 r q).trans (congrArg (· + Q m c (prev (prev t)) r q)
        (hid_first m c (prev (prev (prev t))) a3 r q))))

end Cert.KernelIdeal.Steps

end
-- ==== Proof.KernelEntry.lean ====
/-
  The arrays the blocked evaluation starts from, as functions of the argument arrays.

  Before the grid runs, the two factor families are combined: the first factors of the eight segments are the four
  `A_g` followed by the four `A'_g` each scaled by its `c'_g`; the second factors are the four `B_g` each scaled by
  its `c_g`, followed by the four `B'_g` scaled per rank by `d_g` and per output column by `v_g`. Joining two stacks of
  four along the leading axis puts segment `g < 4` in the first stack and segment `g >= 4` at position `g - 4` of the
  second; a scale vector spread over the two trailing axes reads, at every entry of segment `g`, its entry `g`. The
  bias is kept as a single row, and the row and weight arrays only change float format, which is the identity on
  extended reals.
-/
import proofs.«109911_j16733192585553_2_alg».proof.Proof.Gen.KernelIdeal.Frame.Runs
import proofs.«109911_j16733192585553_2_alg».proof.Proof.AdapterSpec
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo
open Cert.Adapters (Acomb Bcomb)

/-- A per-segment scale, spread over two trailing axes, reads its entry `g` everywhere in segment `g`. -/
theorem scale_apply {n1 n2 : ℕ} (a : S4.Idx → EReal) (h1 : S4.BroadcastsInDim S4x1x1 ![0])
    (h2 : S4x1x1.BroadcastsInDim ⟨3, ![4, n1, n2]⟩ ![0, 1, 2]) (g : Fin 4) (p : Fin n1) (q : Fin n2) :
    broadcastInDim ⟨3, ![4, n1, n2]⟩ ![0, 1, 2] h2 (broadcastInDim S4x1x1 ![0] h1 a) (ix3 g p q) = a (ix1 g) := by
  refine (broadcastInDim_apply _ h2 _ (ix3 g p q) (ix3 g ⟨0, Nat.one_pos⟩ ⟨0, Nat.one_pos⟩) (fun b => by
    match b with
    | ⟨0, _⟩ => show g.val = if (4 : ℕ) = 1 then 0 else g.val; rw [if_neg (by decide)]
    | ⟨1, _⟩ => show (0 : ℕ) = if (1 : ℕ) = 1 then 0 else p.val; rw [if_pos rfl]
    | ⟨2, _⟩ => show (0 : ℕ) = if (1 : ℕ) = 1 then 0 else q.val; rw [if_pos rfl])).trans ?_
  exact broadcastInDim_apply _ h1 a _ (ix1 g) (fun b => by
    match b with
    | ⟨0, _⟩ => show g.val = if (4 : ℕ) = 1 then 0 else g.val; rw [if_neg (by decide)])

/-- A per-segment, per-rank scale spread along the 4096 output columns reads its entry `(g, q)` at `(g, o, q)`. -/
theorem rankScale_apply (a : S4x16.Idx → EReal) (h1 : S4x16.BroadcastsInDim S4x1x16 ![0, 2])
    (h2 : S4x1x16.BroadcastsInDim S4x4096x16 ![0, 1, 2]) (g : Fin 4) (o : Fin 4096) (q : Fin 16) :
    broadcastInDim S4x4096x16 ![0, 1, 2] h2 (broadcastInDim S4x1x16 ![0, 2] h1 a) (ix3 g o q) = a (ix2 g q) := by
  refine (broadcastInDim_apply _ h2 _ (ix3 g o q) (ix3 g ⟨0, Nat.one_pos⟩ q) (fun b => by
    match b with
    | ⟨0, _⟩ => show g.val = if (4 : ℕ) = 1 then 0 else g.val; rw [if_neg (by decide)]
    | ⟨1, _⟩ => show (0 : ℕ) = if (1 : ℕ) = 1 then 0 else o.val; rw [if_pos rfl]
    | ⟨2, _⟩ => show q.val = if (16 : ℕ) = 1 then 0 else q.val; rw [if_neg (by decide)])).trans ?_
  exact broadcastInDim_apply _ h1 a _ (ix2 g q) (fun b => by
    match b with
    | ⟨0, _⟩ => show g.val = if (4 : ℕ) = 1 then 0 else g.val; rw [if_neg (by decide)]
    | ⟨1, _⟩ => show q.val = if (16 : ℕ) = 1 then 0 else q.val; rw [if_neg (by decide)])

/-- A per-segment, per-column scale spread along the 16 ranks reads its entry `(g, o)` at `(g, o, q)`. -/
theorem colScale_apply (a : S4x4096.Idx → EReal) (h1 : S4x4096.BroadcastsInDim S4x4096x1 ![0, 1])
    (h2 : S4x4096x1.BroadcastsInDim S4x4096x16 ![0, 1, 2]) (g : Fin 4) (o : Fin 4096) (q : Fin 16) :
    broadcastInDim S4x4096x16 ![0, 1, 2] h2 (broadcastInDim S4x4096x1 ![0, 1] h1 a) (ix3 g o q) = a (ix2 g o) := by
  refine (broadcastInDim_apply _ h2 _ (ix3 g o q) (ix3 g o ⟨0, Nat.one_pos⟩) (fun b => by
    match b with
    | ⟨0, _⟩ => show g.val = if (4 : ℕ) = 1 then 0 else g.val; rw [if_neg (by decide)]
    | ⟨1, _⟩ => show o.val = if (4096 : ℕ) = 1 then 0 else o.val; rw [if_neg (by decide)]
    | ⟨2, _⟩ => show (0 : ℕ) = if (1 : ℕ) = 1 then 0 else q.val; rw [if_pos rfl])).trans ?_
  exact broadcastInDim_apply _ h1 a _ (ix2 g o) (fun b => by
    match b with
    | ⟨0, _⟩ => show g.val = if (4 : ℕ) = 1 then 0 else g.val; rw [if_neg (by decide)]
    | ⟨1, _⟩ => show o.val = if (4096 : ℕ) = 1 then 0 else o.val; rw [if_neg (by decide)])

/-- Two stacks of four joined along the leading axis: segment `g < 4` is entry `g` of the first stack. -/
theorem join_lo {n1 n2 : ℕ} (x y : (⟨3, ![4, n1, n2]⟩ : Shape).Idx → EReal)
    (h : Shape.Concatenates [(⟨3, ![4, n1, n2]⟩ : Shape), ⟨3, ![4, n1, n2]⟩] ⟨3, ![8, n1, n2]⟩ (0 : Fin 3))
    (g : Fin 8) (hg : g.val < 4) (p : Fin n1) (q : Fin n2) :
    concatenate ⟨3, ![8, n1, n2]⟩ (0 : Fin 3) [⟨⟨3, ![4, n1, n2]⟩, x⟩, ⟨⟨3, ![4, n1, n2]⟩, y⟩] h (ix3 g p q) = x (ix3 ⟨g.val, hg⟩ p q) :=
  concatenate_pair_apply_left (0 : Fin 3) x y h (ix3 g p q) rfl (ix3 ⟨g.val, hg⟩ p q) (fun b => by
    match b with
    | ⟨0, _⟩ => rfl
    | ⟨1, _⟩ => rfl
    | ⟨2, _⟩ => rfl)

/-- … and segment `g >= 4` is entry `g - 4` of the second. -/
theorem join_hi {n1 n2 : ℕ} (x y : (⟨3, ![4, n1, n2]⟩ : Shape).Idx → EReal)
    (h : Shape.Concatenates [(⟨3, ![4, n1, n2]⟩ : Shape), ⟨3, ![4, n1, n2]⟩] ⟨3, ![8, n1, n2]⟩ (0 : Fin 3))
    (g : Fin 8) (hg : ¬g.val < 4) (p : Fin n1) (q : Fin n2) :
    concatenate ⟨3, ![8, n1, n2]⟩ (0 : Fin 3) [⟨⟨3, ![4, n1, n2]⟩, x⟩, ⟨⟨3, ![4, n1, n2]⟩, y⟩] h (ix3 g p q)
      = y (ix3 ⟨g.val - 4, by have := g.isLt; omega⟩ p q) :=
  concatenate_pair_apply_right (0 : Fin 3) x y h (ix3 g p q) rfl rfl (ix3 ⟨g.val - 4, by have := g.isLt; omega⟩ p q)
    (fun b hb => by
      match b with
      | ⟨0, _⟩ => exact absurd rfl hb
      | ⟨1, _⟩ => rfl
      | ⟨2, _⟩ => rfl)
    (by show g.val - 4 + 4 = g.val; omega)

/-- The combined first factors, as the operations before the grid build them. -/
def stageA (a3 : S4x16x4096.Idx → EReal) (a6 : S4x16x4096.Idx → EReal) (a10 : S4.Idx → EReal) : S8x16x4096.Idx → EReal :=
  truncf (F := Ideal) (φ := .f32) .bf16 (concatenate S8x16x4096 0 [⟨S4x16x4096, a3⟩, ⟨S4x16x4096,
    mulf (F := Ideal) a6 (broadcastInDim S4x16x4096 ![0, 1, 2] bcast_S4x1x1_S4x16x4096_0_1_2 (broadcastInDim S4x1x1 ![0] bcast_S4_S4x1x1_0 a10))⟩]
    concatenates_S4x16x4096_S4x16x4096_S8x16x4096_d0) bitsLt_bf16_f32

theorem stageA_apply (a3 : S4x16x4096.Idx → EReal) (a6 : S4x16x4096.Idx → EReal) (a10 : S4.Idx → EReal)
    (g : Fin 8) (q : Fin 16) (k : Fin 4096) : stageA a3 a6 a10 (ix3 g q k) = Acomb a3 a6 a10 g q k := by
  unfold stageA Acomb
  refine (truncf_apply (φ := .f32) (ψ := .bf16) _ bitsLt_bf16_f32 _).trans ?_
  by_cases hg : g.val < 4
  · rw [dif_pos hg]
    exact join_lo a3 _ concatenates_S4x16x4096_S4x16x4096_S8x16x4096_d0 g hg q k
  · rw [dif_neg hg]
    refine (join_hi a3 _ concatenates_S4x16x4096_S4x16x4096_S8x16x4096_d0 g hg q k).trans ?_
    refine (mulf_apply _ _ _).trans ?_
    exact congrArg (a6 _ * ·) (scale_apply a10 _ _ _ q k)

/-- The combined second factors, as the operations before the grid build them. -/
def stageB (a4 : S4x4096x16.Idx → EReal) (a5 : S4.Idx → EReal) (a7 : S4x4096x16.Idx → EReal) (a8 : S4x16.Idx → EReal)
    (a9 : S4x4096.Idx → EReal) : S8x4096x16.Idx → EReal :=
  truncf (F := Ideal) (φ := .f32) .bf16 (concatenate S8x4096x16 0 [⟨S4x4096x16,
    mulf (F := Ideal) a4 (broadcastInDim S4x4096x16 ![0, 1, 2] bcast_S4x1x1_S4x4096x16_0_1_2 (broadcastInDim S4x1x1 ![0] bcast_S4_S4x1x1_0 a5))⟩, ⟨S4x4096x16,
    mulf (F := Ideal) (mulf (F := Ideal) a7 (broadcastInDim S4x4096x16 ![0, 1, 2] bcast_S4x1x16_S4x4096x16_0_1_2 (broadcastInDim S4x1x16 ![0, 2] bcast_S4x16_S4x1x16_0_2 a8)))
      (broadcastInDim S4x4096x16 ![0, 1, 2] bcast_S4x4096x1_S4x4096x16_0_1_2 (broadcastInDim S4x4096x1 ![0, 1] bcast_S4x4096_S4x4096x1_0_1 a9))⟩]
    concatenates_S4x4096x16_S4x4096x16_S8x4096x16_d0) bitsLt_bf16_f32

theorem stageB_apply (a4 : S4x4096x16.Idx → EReal) (a5 : S4.Idx → EReal) (a7 : S4x4096x16.Idx → EReal) (a8 : S4x16.Idx → EReal)
    (a9 : S4x4096.Idx → EReal) (g : Fin 8) (o : Fin 4096) (q : Fin 16) :
    stageB a4 a5 a7 a8 a9 (ix3 g o q) = Bcomb a4 a5 a7 a8 a9 g o q := by
  unfold stageB Bcomb
  refine (truncf_apply (φ := .f32) (ψ := .bf16) _ bitsLt_bf16_f32 _).trans ?_
  by_cases hg : g.val < 4
  · rw [dif_pos hg]
    refine (join_lo _ _ concatenates_S4x4096x16_S4x4096x16_S8x4096x16_d0 g hg o q).trans ?_
    refine (mulf_apply _ _ _).trans ?_
    exact congrArg (a4 _ * ·) (scale_apply a5 _ _ _ o q)
  · rw [dif_neg hg]
    refine (join_hi _ _ concatenates_S4x4096x16_S4x4096x16_S8x4096x16_d0 g hg o q).trans ?_
    refine (mulf_apply _ _ _).trans ?_
    refine congr (congrArg (· * ·) ((mulf_apply _ _ _).trans (congrArg (a7 _ * ·) (rankScale_apply a8 _ _ _ o q)))) ?_
    exact colScale_apply a9 _ _ _ o q

/-- The bias kept as a single row reads, at `(0, o)`, the bias at `o`. -/
theorem biasRow_apply (a2 : S4096.Idx → EReal) (o : Fin 4096) :
    shapeCast S1x4096 a2 shapeCasts_S4096_S1x4096 (ix2 ⟨0, Nat.one_pos⟩ o) = a2 (ix1 o) :=
  shapeCast_apply a2 shapeCasts_S4096_S1x4096 _ _ (by
    rw [Shape.rowMajor_val_one, Shape.rowMajor_val_two]
    show o.val = 0 * 4096 + o.val
    omega)

variable (m : (ℓ : Loc nD τ sig) → Buf (Elt Ideal) ℓ) (c : Dev nD)

/-- The row array the grid reads is the argument's. -/
theorem rows_eq : (V m c main_v17 : S16384x4096.Idx → EReal) = m ((c : Thread nD τ).loc main_arg0) := by
  have e : (V m c main_v17 : S16384x4096.Idx → EReal) = truncf (F := Ideal) (φ := .f32) .bf16 (m ((c : Thread nD τ).loc main_arg0)) bitsLt_bf16_f32 := by
    dsimp only [Gen.V, Gen.hostOps0]; after_results <;> rfl
  exact e

/-- The weight array the grid reads is the argument's. -/
theorem weights_eq : (V m c main_v18 : S4096x4096.Idx → EReal) = m ((c : Thread nD τ).loc main_arg1) := by
  have e : (V m c main_v18 : S4096x4096.Idx → EReal) = truncf (F := Ideal) (φ := .f32) .bf16 (m ((c : Thread nD τ).loc main_arg1)) bitsLt_bf16_f32 := by
    dsimp only [Gen.V, Gen.hostOps0]; after_results <;> rfl
  exact e

/-- The first factors the grid reads are the combined ones. -/
theorem firstFactors_eq : (V m c main_v14 : S8x16x4096.Idx → EReal)
    = stageA (m ((c : Thread nD τ).loc main_arg3)) (m ((c : Thread nD τ).loc main_arg6)) (m ((c : Thread nD τ).loc main_arg10)) := by
  dsimp only [Gen.V, Gen.hostOps0]; after_results <;> rfl

/-- The second factors the grid reads are the combined ones. -/
theorem secondFactors_eq : (V m c main_v15 : S8x4096x16.Idx → EReal)
    = stageB (m ((c : Thread nD τ).loc main_arg4)) (m ((c : Thread nD τ).loc main_arg5)) (m ((c : Thread nD τ).loc main_arg7))
        (m ((c : Thread nD τ).loc main_arg8)) (m ((c : Thread nD τ).loc main_arg9)) := by
  dsimp only [Gen.V, Gen.hostOps0]; after_results <;> rfl

/-- The bias row the grid reads is the bias, kept as one row. -/
theorem biasRow_eq : (V m c main_v16 : S1x4096.Idx → EReal)
    = shapeCast S1x4096 (m ((c : Thread nD τ).loc main_arg2)) shapeCasts_S4096_S1x4096 := by
  dsimp only [Gen.V, Gen.hostOps0]; after_results <;> rfl

end Cert.KernelIdeal.Entry

end
-- ==== Proof.KernelBlocks.lean ====
/-
  The kernel's input blocks, read at an entry.

  The grid has 8 x 4 x 4 = 128 points; point `t` has coordinates `i = t / 16` (the row block, which is also the segment),
  `j = (t / 4) % 4` (the block of 1024 output columns) and `k = t % 4` (the block of 1024 input columns). Each input window
  shows the body one block of its array, and an entry of a block is the array's entry at block index times block size plus
  the coordinate inside the block, axis by axis:
    window 0, the rows:            block `(i, k)` of 2048 x 1024;
    window 1, the weight:          block `(j, k)` of 1024 x 1024;
    window 2, the first factors:   block `(i, 0, k)` of 1 x 16 x 1024;
    window 3, the second factors:  block `(i, j, 0)` of 1 x 1024 x 16;
    window 4, the bias row:        block `(0, j)` of 1 x 1024.
-/
import proofs.«109911_j16733192585553_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

/-! ## The block indices at a point, decided once over the grid -/

/-- Window 0 is at block `(t / 16, t % 4)`. -/
theorem idx0 : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
/-- Window 1 is at block `((t / 4) % 4, t % 4)`. -/
theorem idx1 : ∀ t : Fin cfg0.N, win0_1.index t 0 = t.val / 4 % 4 ∧ win0_1.index t 1 = t.val % 4 :=
  (by decide +kernel : ∀ t : Fin grid0.N, win0_1.index t 0 = t.val / 4 % 4 ∧ win0_1.index t 1 = t.val % 4)
/-- Window 2 is at block `(t / 16, 0, t % 4)`. -/
theorem idx2 : ∀ t : Fin cfg0.N, win0_2.index t 0 = t.val / 16 ∧ win0_2.index t 1 = 0 ∧ win0_2.index t 2 = t.val % 4 :=
  (by decide +kernel : ∀ t : Fin grid0.N, win0_2.index t 0 = t.val / 16 ∧ win0_2.index t 1 = 0 ∧ win0_2.index t 2 = t.val % 4)
/-- Window 3 is at block `(t / 16, (t / 4) % 4, 0)`. -/
theorem idx3 : ∀ t : Fin cfg0.N, win0_3.index t 0 = t.val / 16 ∧ win0_3.index t 1 = t.val / 4 % 4 ∧ win0_3.index t 2 = 0 :=
  (by decide +kernel : ∀ t : Fin grid0.N, win0_3.index t 0 = t.val / 16 ∧ win0_3.index t 1 = t.val / 4 % 4 ∧ win0_3.index t 2 = 0)
/-- Window 4 is at block `(0, (t / 4) % 4)`. -/
theorem idx4 : ∀ t : Fin cfg0.N, win0_4.index t 0 = 0 ∧ win0_4.index t 1 = t.val / 4 % 4 :=
  (by decide +kernel : ∀ t : Fin grid0.N, win0_4.index t 0 = 0 ∧ win0_4.index t 1 = t.val / 4 % 4)

/-- A grid point's number is below 128. -/
theorem pt_lt (t : Fin cfg0.N) : t.val < 128 := lt_of_lt_of_eq t.isLt (show cfg0.N = 128 from N_0)

variable {F : FTy → Type} [FloatOps F]
variable (m : (ℓ : Loc nD τ sig) → Buf (Elt F) ℓ) (c : Dev nD) (t : Fin cfg0.N)

/-! ## The blocks at an entry -/

/-- Row `r`, column `l` of window 0's block at point `t` is the rows array at row `(t / 16) * 2048 + r`, column
    `(t % 4) * 1024 + l`. -/
theorem blk0 (r : Fin 2048) (l : Fin 1024) :
    (iblk m c 0 t : S2048x1024.Idx → Elt F .bf16) (ix2 r l)
      = (V m c main_v17 : S16384x4096.Idx → Elt F .bf16)
          (ix2 (⟨t.val / 16 * 2048 + r.val, by have := pt_lt t; have := r.isLt; omega⟩ : Fin 16384)
            (⟨t.val % 4 * 1024 + l.val, by have := l.isLt; omega⟩ : Fin 4096)) := by
  unfold iblk
  rw [View.read_apply]
  show V m c main_v17 _ = V m c main_v17 _
  refine congrArg (V m c main_v17) (funext fun a => Fin.ext ?_)
  match a with
  | ⟨0, _⟩ => show win0_0.index t 0 * 2048 + 1 * r.val = t.val / 16 * 2048 + r.val; rw [(idx0 t).1]; omega
  | ⟨1, _⟩ => show win0_0.index t 1 * 1024 + 1 * l.val = t.val % 4 * 1024 + l.val; rw [(idx0 t).2]; omega

/-- Row `p`, column `l` of window 1's block at point `t` is the weight array at row `((t / 4) % 4) * 1024 + p`, column
    `(t % 4) * 1024 + l`. -/
theorem blk1 (p : Fin 1024) (l : Fin 1024) :
    (iblk m c 1 t : S1024x1024.Idx → Elt F .bf16) (ix2 p l)
      = (V m c main_v18 : S4096x4096.Idx → Elt F .bf16)
          (ix2 (⟨t.val / 4 % 4 * 1024 + p.val, by have := p.isLt; omega⟩ : Fin 4096)
            (⟨t.val % 4 * 1024 + l.val, by have := l.isLt; omega⟩ : Fin 4096)) := by
  unfold iblk
  rw [View.read_apply]
  show V m c main_v18 _ = V m c main_v18 _
  refine congrArg (V m c main_v18) (funext fun a => Fin.ext ?_)
  match a with
  | ⟨0, _⟩ => show win0_1.index t 0 * 1024 + 1 * p.val = t.val / 4 % 4 * 1024 + p.val; rw [(idx1 t).1]; omega
  | ⟨1, _⟩ => show win0_1.index t 1 * 1024 + 1 * l.val = t.val % 4 * 1024 + l.val; rw [(idx1 t).2]; omega

/-- Rank `q`, column `l` of window 2's block at point `t` is the first factors at segment `t / 16`, rank `q`, column
    `(t % 4) * 1024 + l`. -/
theorem blk2 (q : Fin 16) (l : Fin 1024) :
    (iblk m c 2 t : S1x16x1024.Idx → Elt F .bf16) (ix3 (⟨0, Nat.one_pos⟩ : Fin 1) q l)
      = (V m c main_v14 : S8x16x4096.Idx → Elt F .bf16)
          (ix3 (⟨t.val / 16, by have := pt_lt t; omega⟩ : Fin 8) q
            (⟨t.val % 4 * 1024 + l.val, by have := l.isLt; omega⟩ : Fin 4096)) := by
  unfold iblk
  rw [View.read_apply]
  show V m c main_v14 _ = V m c main_v14 _
  refine congrArg (V m c main_v14) (funext fun a => Fin.ext ?_)
  match a with
  | ⟨0, _⟩ => show win0_2.index t 0 * 1 + 1 * 0 = t.val / 16; rw [(idx2 t).1]; omega
  | ⟨1, _⟩ => show win0_2.index t 1 * 16 + 1 * q.val = q.val; rw [(idx2 t).2.1]; omega
  | ⟨2, _⟩ => show win0_2.index t 2 * 1024 + 1 * l.val = t.val % 4 * 1024 + l.val; rw [(idx2 t).2.2]; omega

/-- Column `p`, rank `q` of window 3's block at point `t` is the second factors at segment `t / 16`, output column
    `((t / 4) % 4) * 1024 + p`, rank `q`. -/
theorem blk3 (p : Fin 1024) (q : Fin 16) :
    (iblk m c 3 t : S1x1024x16.Idx → Elt F .bf16) (ix3 (⟨0, Nat.one_pos⟩ : Fin 1) p q)
      = (V m c main_v15 : S8x4096x16.Idx → Elt F .bf16)
          (ix3 (⟨t.val / 16, by have := pt_lt t; omega⟩ : Fin 8)
            (⟨t.val / 4 % 4 * 1024 + p.val, by have := p.isLt; omega⟩ : Fin 4096) q) := by
  unfold iblk
  rw [View.read_apply]
  show V m c main_v15 _ = V m c main_v15 _
  refine congrArg (V m c main_v15) (funext fun a => Fin.ext ?_)
  match a with
  | ⟨0, _⟩ => show win0_3.index t 0 * 1 + 1 * 0 = t.val / 16; rw [(idx3 t).1]; omega
  | ⟨1, _⟩ => show win0_3.index t 1 * 1024 + 1 * p.val = t.val / 4 % 4 * 1024 + p.val; rw [(idx3 t).2.1]; omega
  | ⟨2, _⟩ => show win0_3.index t 2 * 16 + 1 * q.val = q.val; rw [(idx3 t).2.2]; omega

/-- Column `p` of window 4's block at point `t` is the bias row at column `((t / 4) % 4) * 1024 + p`. -/
theorem blk4 (p : Fin 1024) :
    (iblk m c 4 t : S1x1024.Idx → Elt F .f32) (ix2 (⟨0, Nat.one_pos⟩ : Fin 1) p)
      = (V m c main_v16 : S1x4096.Idx → Elt F .f32)
          (ix2 (⟨0, Nat.one_pos⟩ : Fin 1) (⟨t.val / 4 % 4 * 1024 + p.val, by have := p.isLt; omega⟩ : Fin 4096)) := by
  unfold iblk
  rw [View.read_apply]
  show V m c main_v16 _ = V m c main_v16 _
  refine congrArg (V m c main_v16) (funext fun a => Fin.ext ?_)
  match a with
  | ⟨0, _⟩ => show win0_4.index t 0 * 1 + 1 * 0 = 0; rw [(idx4 t).1]
  | ⟨1, _⟩ => show win0_4.index t 1 * 1024 + 1 * p.val = t.val / 4 % 4 * 1024 + p.val; rw [(idx4 t).2]; omega

end Cert.KernelIdeal.Blocks

end
-- ==== Proof.KernelCover.lean ====
/-
  From the output tiles to the whole output array.

  The grid has 8 x 4 x 4 points; point `t` has row block `t / 16`, column block `(t / 4) % 4` and reduction step
  `t % 4`. The output array of 16384 x 4096 entries is cut into tiles of 2048 x 1024; the tile of row block `i` and
  column block `j` is written back at the last reduction step of the pair `(i, j)`, that is at the points with
  `t % 4 = 3`. If at each such point the tile written back holds, entry by entry, the values of one function `G` of the
  array's indices, then, the tiles covering every index, the array ends holding `G`.
-/
import proofs.«109911_j16733192585553_2_alg».proof.Proof.Gen.KernelIdeal.Value
import Idealize.ShloMosaic.Lib.Pipeline.Value
import Idealize.ShloMosaic.Lib.ValueIdx

noncomputable section

namespace Cert.KernelIdeal.Cover

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (c : Dev nD)

/-- The grid has 128 points. -/
theorem point_lt (t : Fin cfg0.N) : t.val < 128 := lt_of_lt_of_eq t.isLt (show cfg0.N = 128 from N_0)

/-- The output tile of point `t`: its row block is `t / 16`, its column block `(t / 4) % 4` (decided over the grid). -/
theorem tile_index : ∀ t : Fin cfg0.N, win0_5.index t (0 : Fin 2) = t.val / 16 ∧ win0_5.index t (1 : Fin 2) = (t.val / 4) % 4 :=
  (by decide +kernel : ∀ t : Fin grid0.N, win0_5.index t (0 : Fin 2) = t.val / 16 ∧ win0_5.index t (1 : Fin 2) = (t.val / 4) % 4)

/-- What a point at the last reduction step writes back is its tile of `G`: entry `(r, p)` of the tile is entry
    `(row block * 2048 + r, column block * 1024 + p)` of the array. -/
theorem flushed_tile (G : S16384x4096.Idx → Elt F .f32)
    (hG : ∀ t : Fin cfg0.N, t.val % 4 = 3 → ∀ (r : Fin 2048) (p : Fin 1024),
      ((outsAt0 m c t.val t.isLt).1 : S2048x1024.Idx → Elt F .f32) (ix2 r p)
        = G (ix2 (⟨(t.val / 16) * 2048 + r.val, by have := point_lt t; have := r.isLt; omega⟩ : Fin 16384)
                 (⟨((t.val / 4) % 4) * 1024 + p.val, by have := p.isLt; omega⟩ : Fin 4096)))
    (t : Fin cfg0.N) (ht : t.val % 4 = 3) :
    (dats m 0 c).flushed 5 t = ((cfg0.win 5).blk t).view.read (Elt F) G := by
  rw [Value.flushed5]
  funext y
  have h0 : (y 0).val < 2048 := (y 0).isLt
  have h1 : (y 1).val < 1024 := (y 1).isLt
  rw [View.read_apply]
  have hx : (cfg0.win 5).cut (grid0.coords t) ((outsAt0 m c t.val t.isLt).1) y
      = ((outsAt0 m c t.val t.isLt).1 : S2048x1024.Idx → Elt F .f32) (ix2 ⟨(y 0).val, h0⟩ ⟨(y 1).val, h1⟩) := by
    show ((outsAt0 m c t.val t.isLt).1 : S2048x1024.Idx → Elt F .f32) _ = _
    refine congrArg _ (funext fun a => ?_)
    match a with
    | ⟨0, _⟩ => rfl
    | ⟨1, _⟩ => rfl
  rw [hx, hG t ht]
  refine congrArg G (funext fun a => Fin.ext ?_)
  obtain ⟨e0, e1⟩ := tile_index t
  match a with
  | ⟨0, _⟩ =>
    show t.val / 16 * 2048 + (y 0).val = win0_5.index t (0 : Fin 2) * 2048 + 1 * (y 0).val
    rw [e0]; omega
  | ⟨1, _⟩ =>
    show t.val / 4 % 4 * 1024 + (y 1).val = win0_5.index t (1 : Fin 2) * 1024 + 1 * (y 1).val
    rw [e1]; omega

/-- An index of the array lies in the tile of point `t` iff each coordinate lies in the tile's range on its axis. -/
theorem mem_tile (t : Fin cfg0.N) (i : S16384x4096.Idx) :
    i ∈ ((cfg0.win 5).blk t).view.set ↔ ∀ a : Fin 2, win0_5.index t a * S2048x1024.size a ≤ (i a).val
      ∧ (i a).val < win0_5.index t a * S2048x1024.size a + S2048x1024.size a := by
  show i ∈ ((View.whole main_v19).slice (win0_5.rect t)).set ↔ _
  rw [View.set_slice_whole, Rect.mem_set_unit]
  exact Iff.rfl

/-- Every index `(s, o)` of the array lies in the tile of a point that writes back: the last reduction step of row
    block `s / 2048` and column block `o / 1024`. -/
theorem covered (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  have hlt : (((i 0).val / 2048) * 4 + (i 1).val / 1024) * 4 + 3 < cfg0.N := by
    rw [show cfg0.N = 128 from N_0]; omega
  refine ⟨⟨(((i 0).val / 2048) * 4 + (i 1).val / 1024) * 4 + 3, hlt⟩, (flush0_5 _).mpr ?_, ?_⟩
  · show ((((i 0).val / 2048) * 4 + (i 1).val / 1024) * 4 + 3) % 4 = 3
    omega
  · rw [mem_tile]
    obtain ⟨e0, e1⟩ := tile_index ⟨(((i 0).val / 2048) * 4 + (i 1).val / 1024) * 4 + 3, hlt⟩
    have q0 : win0_5.index ⟨(((i 0).val / 2048) * 4 + (i 1).val / 1024) * 4 + 3, hlt⟩ (0 : Fin 2)
        = ((((i 0).val / 2048) * 4 + (i 1).val / 1024) * 4 + 3) / 16 := e0
    have q1 : win0_5.index ⟨(((i 0).val / 2048) * 4 + (i 1).val / 1024) * 4 + 3, hlt⟩ (1 : Fin 2)
        = ((((i 0).val / 2048) * 4 + (i 1).val / 1024) * 4 + 3) / 4 % 4 := e1
    intro a
    match a with
    | ⟨0, _⟩ =>
      show win0_5.index ⟨(((i 0).val / 2048) * 4 + (i 1).val / 1024) * 4 + 3, hlt⟩ (0 : Fin 2) * 2048 ≤ (i 0).val
        ∧ (i 0).val < win0_5.index ⟨(((i 0).val / 2048) * 4 + (i 1).val / 1024) * 4 + 3, hlt⟩ (0 : Fin 2) * 2048 + 2048
      rw [q0]; omega
    | ⟨1, _⟩ =>
      show win0_5.index ⟨(((i 0).val / 2048) * 4 + (i 1).val / 1024) * 4 + 3, hlt⟩ (1 : Fin 2) * 1024 ≤ (i 1).val
        ∧ (i 1).val < win0_5.index ⟨(((i 0).val / 2048) * 4 + (i 1).val / 1024) * 4 + 3, hlt⟩ (1 : Fin 2) * 1024 + 1024
      rw [q1]; omega

/-- The output array after the run is `G`, if every tile written back is its tile of `G`. -/
theorem final_of_entries (G : S16384x4096.Idx → Elt F .f32)
    (hG : ∀ t : Fin cfg0.N, t.val % 4 = 3 → ∀ (r : Fin 2048) (p : Fin 1024),
      ((outsAt0 m c t.val t.isLt).1 : S2048x1024.Idx → Elt F .f32) (ix2 r p)
        = G (ix2 (⟨(t.val / 16) * 2048 + r.val, by have := point_lt t; have := r.isLt; omega⟩ : Fin 16384)
                 (⟨((t.val / 4) % 4) * 1024 + p.val, by have := p.isLt; omega⟩ : Fin 4096))) :
    (dats m 0 c).arrAt 5 cfg0.N = G :=
  (dats m 0 c).arrAt_eq_of_cover 5 G (fun t hf => flushed_tile m c G hG t ((flush0_5 t).mp hf)) covered

end Cert.KernelIdeal.Cover

end
-- ==== Proof.KernelValue.lean ====
/-
  The array the blocked evaluation ends with, entry by entry, is the blocked arrangement of the layer.

  The closing step of the run for row block `i` and column block `j` leaves, at entry `(r, p)` of its output tile, the
  value for token row `s = 2048 i + r` and output column `o = 1024 j + p`: the four steps of the run read the four
  column blocks `k = 0, …, 3` of row `s`, of weight row `o` and of the first factor of segment `i` (the row's segment,
  since a row block is exactly one segment), and the closing step reads the second factor of segment `i` at column `o`
  and the bias at `o`. The tiles of the closing steps tile the result array, so the array is that function everywhere.
-/
import proofs.«109911_j16733192585553_2_alg».proof.Proof.Gen.KernelIdeal.Value
import proofs.«109911_j16733192585553_2_alg».proof.Proof.AdapterSpec
import proofs.«109911_j16733192585553_2_alg».proof.Proof.KernelSteps
import proofs.«109911_j16733192585553_2_alg».proof.Proof.KernelEntry
import proofs.«109911_j16733192585553_2_alg».proof.Proof.KernelBlocks
import proofs.«109911_j16733192585553_2_alg».proof.Proof.KernelCover

noncomputable section

open scoped BigOperators

namespace Cert.KernelIdeal.Result

open Cert.KernelIdeal Cert.KernelIdeal.Gen Idealize.ShloMosaic Idealize.ShloMosaic.TcCoe Idealize.ShloMosaic.ValueIdx
open Idealize.SL.Sem
open Cert.Adapters (kerFun chain4 kpos seg Acomb Bcomb)

variable (m : (ℓ : Loc nD τ sig) → Buf (Elt Ideal) ℓ) (c : Dev nD)

/-- The combined first factors of the launch's argument arrays. -/
abbrev A : Fin 8 → Fin 16 → Fin 4096 → EReal :=
  Acomb (m ((c : Thread nD τ).loc main_arg3)) (m ((c : Thread nD τ).loc main_arg6)) (m ((c : Thread nD τ).loc main_arg10))

/-- The combined second factors of the launch's argument arrays. -/
abbrev B : Fin 8 → Fin 4096 → Fin 16 → EReal :=
  Bcomb (m ((c : Thread nD τ).loc main_arg4)) (m ((c : Thread nD τ).loc main_arg5)) (m ((c : Thread nD τ).loc main_arg7))
    (m ((c : Thread nD τ).loc main_arg8)) (m ((c : Thread nD τ).loc main_arg9))

/-- The result array: the blocked arrangement of the layer at every entry. -/
def result : S16384x4096.Idx → EReal := fun i =>
  kerFun (m ((c : Thread nD τ).loc main_arg0)) (m ((c : Thread nD τ).loc main_arg1)) (m ((c : Thread nD τ).loc main_arg2))
    (A m c) (B m c) (i 0) (i 1)

theorem ix2_congr {n0 n1 : ℕ} {a a' : Fin n0} {b b' : Fin n1} (ha : a.val = a'.val) (hb : b.val = b'.val) :
    ix2 a b = ix2 a' b' := by rw [Fin.ext ha, Fin.ext hb]

theorem ix3_congr {n0 n1 n2 : ℕ} {a a' : Fin n0} {b b' : Fin n1} {d d' : Fin n2} (ha : a.val = a'.val) (hb : b.val = b'.val)
    (hd : d.val = d'.val) : ix3 a b d = ix3 a' b' d' := by rw [Fin.ext ha, Fin.ext hb, Fin.ext hd]

/-- Four values added in order from zero are `chain4` of the function listing them. -/
theorem chain4_of (f : Fin 4 → EReal) (a b d e : EReal) (h0 : a = f 0) (h1 : b = f 1) (h2 : d = f 2) (h3 : e = f 3) :
    (((0 + a) + b) + d) + e = chain4 f := by
  subst h0 h1 h2 h3; rfl

/-- The argument arrays, as arrays of extended reals. -/
abbrev x0 : S16384x4096.Idx → EReal := m ((c : Thread nD τ).loc main_arg0)
abbrev x1 : S4096x4096.Idx → EReal := m ((c : Thread nD τ).loc main_arg1)
abbrev x2 : S4096.Idx → EReal := m ((c : Thread nD τ).loc main_arg2)

/-- An entry of the row block of a step of the run is the row array at row `s` and the step's column block. -/
theorem rowBlk_eq (t u : Fin cfg0.N) (kb : Fin 4) (hi : u.val / 16 = t.val / 16) (hk : u.val % 4 = kb.val)
    (r : Fin 2048) (s : Fin 16384) (hs : s.val = t.val / 16 * 2048 + r.val) (l : Fin 1024) :
    Steps.rowBlk m c u (ix2 r l) = x0 m c (ix2 s (kpos kb l)) := by
  refine (Blocks.blk0 m c u r l).trans ((congrFun (Entry.rows_eq m c) _).trans (congrArg _ (ix2_congr ?_ ?_)))
  · show u.val / 16 * 2048 + r.val = s.val
    omega
  · show u.val % 4 * 1024 + l.val = kb.val * 1024 + l.val
    omega

/-- An entry of the weight block of a step of the run is the weight array at row `o` and the step's column block. -/
theorem wBlk_eq (t u : Fin cfg0.N) (kb : Fin 4) (hj : u.val / 4 % 4 = t.val / 4 % 4) (hk : u.val % 4 = kb.val)
    (p : Fin 1024) (o : Fin 4096) (ho : o.val = t.val / 4 % 4 * 1024 + p.val) (l : Fin 1024) :
    Steps.wBlk m c u (ix2 p l) = x1 m c (ix2 o (kpos kb l)) := by
  refine (Blocks.blk1 m c u p l).trans ((congrFun (Entry.weights_eq m c) _).trans (congrArg _ (ix2_congr ?_ ?_)))
  · show u.val / 4 % 4 * 1024 + p.val = o.val
    omega
  · show u.val % 4 * 1024 + l.val = kb.val * 1024 + l.val
    omega

/-- An entry of the first-factor block of a step of the run is the combined first factor of the row's segment. -/
theorem aBlk_eq (t u : Fin cfg0.N) (kb : Fin 4) (hi : u.val / 16 = t.val / 16) (hk : u.val % 4 = kb.val)
    (r : Fin 2048) (s : Fin 16384) (hs : s.val = t.val / 16 * 2048 + r.val) (q : Fin 16) (l : Fin 1024) :
    Steps.aBlk m c u (ix3 ⟨0, Nat.one_pos⟩ q l) = A m c (seg s) q (kpos kb l) := by
  refine (Blocks.blk2 m c u q l).trans ((congrFun (Entry.firstFactors_eq m c) _).trans ?_)
  refine Eq.trans (congrArg _ (ix3_congr (a' := seg s) (b' := q) (d' := kpos kb l) ?_ rfl ?_)) (Entry.stageA_apply _ _ _ (seg s) q (kpos kb l))
  · show u.val / 16 = s.val / 2048
    have := r.isLt
    omega
  · show u.val % 4 * 1024 + l.val = kb.val * 1024 + l.val
    omega

/-- An entry of the second-factor block of the closing step is the combined second factor of the row's segment at
    column `o`. -/
theorem bBlk_eq (t : Fin cfg0.N) (r : Fin 2048) (p : Fin 1024) (s : Fin 16384) (o : Fin 4096)
    (hs : s.val = t.val / 16 * 2048 + r.val) (ho : o.val = t.val / 4 % 4 * 1024 + p.val) (q : Fin 16) :
    Steps.bBlk m c t (ix3 ⟨0, Nat.one_pos⟩ p q) = B m c (seg s) o q := by
  refine (Blocks.blk3 m c t p q).trans ((congrFun (Entry.secondFactors_eq m c) _).trans ?_)
  refine Eq.trans (congrArg _ (ix3_congr (a' := seg s) (b' := o) (d' := q) ?_ ?_ rfl)) (Entry.stageB_apply _ _ _ _ _ (seg s) o q)
  · show t.val / 16 = s.val / 2048
    have := r.isLt
    omega
  · show t.val / 4 % 4 * 1024 + p.val = o.val
    omega

/-- An entry of the bias block of the closing step is the bias at column `o`. -/
theorem vBlk_eq (t : Fin cfg0.N) (p : Fin 1024) (o : Fin 4096) (ho : o.val = t.val / 4 % 4 * 1024 + p.val) :
    Steps.vBlk m c t (ix2 ⟨0, Nat.one_pos⟩ p) = x2 m c (ix1 o) := by
  refine (Blocks.blk4 m c t p).trans ((congrFun (Entry.biasRow_eq m c) _).trans ?_)
  refine Eq.trans (congrArg _ (ix2_congr (a' := (⟨0, Nat.one_pos⟩ : Fin 1)) (b' := o) rfl ?_)) (Entry.biasRow_apply _ o)
  show t.val / 4 % 4 * 1024 + p.val = o.val
  omega

/-- The base product of a step of the run is the block-`kb` partial product of row `s` and weight row `o`. -/
theorem P_eq (t u : Fin cfg0.N) (kb : Fin 4) (hi : u.val / 16 = t.val / 16) (hj : u.val / 4 % 4 = t.val / 4 % 4) (hk : u.val % 4 = kb.val)
    (r : Fin 2048) (p : Fin 1024) (s : Fin 16384) (o : Fin 4096) (hs : s.val = t.val / 16 * 2048 + r.val)
    (ho : o.val = t.val / 4 % 4 * 1024 + p.val) :
    Steps.P m c u r p = ∑ l : Fin 1024, x0 m c (ix2 s (kpos kb l)) * x1 m c (ix2 o (kpos kb l)) :=
  Finset.sum_congr rfl fun l _ => congrArg₂ (· * ·) (rowBlk_eq m c t u kb hi hk r s hs l) (wBlk_eq m c t u kb hj hk p o ho l)

/-- The hidden product of a step of the run is the block-`kb` partial product of row `s` and the segment's first factor. -/
theorem Q_eq (t u : Fin cfg0.N) (kb : Fin 4) (hi : u.val / 16 = t.val / 16) (hk : u.val % 4 = kb.val)
    (r : Fin 2048) (s : Fin 16384) (hs : s.val = t.val / 16 * 2048 + r.val) (q : Fin 16) :
    Steps.Q m c u r q = ∑ l : Fin 1024, x0 m c (ix2 s (kpos kb l)) * A m c (seg s) q (kpos kb l) :=
  Finset.sum_congr rfl fun l _ => congrArg₂ (· * ·) (rowBlk_eq m c t u kb hi hk r s hs l) (aBlk_eq m c t u kb hi hk r s hs q l)

/-- The output tile after a closing step holds the blocked arrangement of the layer at the tile's rows and columns. -/
theorem tile_entry (t : Fin cfg0.N) (h3 : t.val % 4 = 3) (r : Fin 2048) (p : Fin 1024) (s : Fin 16384) (o : Fin 4096)
    (hs : s.val = t.val / 16 * 2048 + r.val) (ho : o.val = t.val / 4 % 4 * 1024 + p.val) :
    Steps.outTile m c t (ix2 r p) = result m c (ix2 s o) := by
  have ht : t.val < 128 := lt_of_lt_of_eq t.isLt (show cfg0.N = 128 from N_0)
  have e1 : (Steps.prev t).val = t.val - 1 := rfl
  have e2 : (Steps.prev (Steps.prev t)).val = t.val - 1 - 1 := rfl
  have e3 : (Steps.prev (Steps.prev (Steps.prev t))).val = t.val - 1 - 1 - 1 := rfl
  rw [Steps.run_of_four m c t h3 r p]
  show _ = kerFun (x0 m c) (x1 m c) (x2 m c) (A m c) (B m c) s o
  unfold kerFun
  refine congrArg₂ (· + ·) (congrArg₂ (· + ·) ?_ ?_) ?_
  · exact chain4_of _ _ _ _ _
      (P_eq m c t _ 0 (by rw [e3]; omega) (by rw [e3]; omega) (by rw [e3]; show _ = 0; omega) r p s o hs ho)
      (P_eq m c t _ 1 (by rw [e2]; omega) (by rw [e2]; omega) (by rw [e2]; show _ = 1; omega) r p s o hs ho)
      (P_eq m c t _ 2 (by rw [e1]; omega) (by rw [e1]; omega) (by rw [e1]; show _ = 2; omega) r p s o hs ho)
      (P_eq m c t t 3 rfl rfl (by show _ = 3; omega) r p s o hs ho)
  · refine Finset.sum_congr rfl fun q _ => congrArg₂ (· * ·) ?_ (bBlk_eq m c t r p s o hs ho q)
    exact chain4_of _ _ _ _ _
      (Q_eq m c t _ 0 (by rw [e3]; omega) (by rw [e3]; show _ = 0; omega) r s hs q)
      (Q_eq m c t _ 1 (by rw [e2]; omega) (by rw [e2]; show _ = 1; omega) r s hs q)
      (Q_eq m c t _ 2 (by rw [e1]; omega) (by rw [e1]; show _ = 2; omega) r s hs q)
      (Q_eq m c t t 3 rfl (by show _ = 3; omega) r s hs q)
  · exact vBlk_eq m c t p o ho

/-- So the result array ends holding the blocked arrangement everywhere. -/
theorem final : (dats m 0 c).arrAt 5 cfg0.N = result m c :=
  Cover.final_of_entries m c (result m c) (fun t h3 r p => tile_entry m c t h3 r p _ _ rfl rfl)

/-- The run, read: the result array at the blocked arrangement of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final m c), (h c).2⟩) (Value.run_blocks m ρ)

end Cert.KernelIdeal.Result

end
-- ==== Proof.lean ====
/-
  A frozen linear layer with per-segment low-rank adapters, evaluated in blocks, against its plain statement.

  The 16384 token rows fall into eight segments of 2048 rows; a row of segment `g` gets `x W^T + b` plus a rank-16
  correction through the segment's own pair of factors — for `g < 4` scaled by a scalar at the end, for `g >= 4` scaled
  on the way in (a scalar), per rank (a vector) and per output column (a vector).

  The blocked evaluation folds every scale into two combined factor arrays before it starts, then visits an
  8 by 4 by 4 grid: for each pair of a row block (one segment) and a column block it runs four steps over the four
  blocks of 1024 input columns, accumulating the base product in the output tile and the hidden vector in a side
  tile from zero, and in the fourth step adds the hidden tile contracted against the combined second factor, and
  the bias. Read entry by entry, what the result array ends holding is `Cert.Adapters.kerFun` of the arguments
  (the module KernelValue, over KernelSteps, KernelBlocks, KernelEntry and KernelCover).

  The plain statement runs as twenty-seven array operations whose composition, read entry by entry, is
  `Cert.Adapters.refFun` of the arguments (RefIsSpec).

  Every input entry is finite (FiniteInputs), hence a real number, and over the reals the two functions agree: sums
  over four consecutive blocks recombine to the sum over the whole axis, and each scale moves across the sums it is
  folded into by distributivity (AdapterAlgebra). Distributivity is where finiteness is used: it fails on the extended
  reals at infinite entries.

  The three frame claims are the generated frames; the idealization rewrote nothing, so `preserves` is `True`.
-/
import proofs.«109911_j16733192585553_2_alg».proof.Defs
import proofs.«109911_j16733192585553_2_alg».proof.Proof.Gen.Kernel
import proofs.«109911_j16733192585553_2_alg».proof.Proof.Gen.Kernel.Skeleton
import proofs.«109911_j16733192585553_2_alg».proof.Proof.Gen.Kernel.Launch
import proofs.«109911_j16733192585553_2_alg».proof.Proof.Gen.Kernel.Points
import proofs.«109911_j16733192585553_2_alg».proof.Proof.Gen.Kernel.Frame
import proofs.«109911_j16733192585553_2_alg».proof.Proof.Gen.KernelIdeal
import proofs.«109911_j16733192585553_2_alg».proof.Proof.Gen.KernelIdeal.Skeleton
import proofs.«109911_j16733192585553_2_alg».proof.Proof.Gen.KernelIdeal.Launch
import proofs.«109911_j16733192585553_2_alg».proof.Proof.Gen.KernelIdeal.Points
import proofs.«109911_j16733192585553_2_alg».proof.Proof.Gen.KernelIdeal.Frame
import proofs.«109911_j16733192585553_2_alg».proof.Proof.Gen.ReferenceIdeal
import proofs.«109911_j16733192585553_2_alg».proof.Proof.Gen.KernelIdeal.Value
import proofs.«109911_j16733192585553_2_alg».proof.Proof.Gen.ReferenceIdeal.Run
import proofs.«109911_j16733192585553_2_alg».proof.Proof.Gen.ReferenceIdeal.Read
import proofs.«109911_j16733192585553_2_alg».proof.Proof.Gen.Pre_finite_inputs
import proofs.«109911_j16733192585553_2_alg».proof.Proof.AdapterSpec
import proofs.«109911_j16733192585553_2_alg».proof.Proof.AdapterAlgebra
import proofs.«109911_j16733192585553_2_alg».proof.Proof.FiniteInputs
import proofs.«109911_j16733192585553_2_alg».proof.Proof.RefIsSpec
import proofs.«109911_j16733192585553_2_alg».proof.Proof.KernelValue
import Idealize.ShloMosaic.Adequacy
import Idealize.ShloMosaic.Init

noncomputable section

namespace Cert.Proof

open Idealize.ShloMosaic Idealize.SL.Sem

/-- The word-level program runs and keeps its arguments. -/
theorem frame_kernel : Cert.frame_Kernel := fun m ρ _ => Cert.Kernel.Gen.frame m ρ

/-- The idealized program runs and keeps its arguments. -/
theorem frame_kernelIdeal : Cert.frame_KernelIdeal := fun m ρ _ => Cert.KernelIdeal.Gen.frame m ρ

/-- The plain statement runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments, both programs end with the same array: the blocked evaluation with
    `kerFun` of the arguments at every entry, the plain statement with `refFun`, and the two agree on real entries. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  obtain ⟨h0, h1, h2, h3, h4, h5, h6, h7, h8, h9, h10⟩ := Cert.Finite.finite_of_fn _ _ _ _ _ _ _ _ _ _ _ (hpre c)
  rw [e0, e1, e2, e3, e4, e5, e6, e7, e8, e9, e10]
  refine (Cert.ReferenceIdeal.Read.val_main_v26_eq _ _ _ _ _ _ _ _ _ _ _).trans
    ((Cert.Adapters.Ref.ref_eq _ _ _ _ _ _ _ _ _ _ _).trans ?_)
  funext i
  exact (Cert.Adapters.ker_eq_ref _ _ _ _ _ _ _ _ _ _ _ h0 h1 h2 h3 h4 h5 h6 h7 h8 h9 h10 (i 0) (i 1)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
